-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S11x128 : Shape := ⟨2, ![11, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x128 : S_.BroadcastsInDim S11x128 (![] : Fin 0 → Fin S11x128.rank)
  reducesTo_S11x128_S_d0_1 : S11x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x11 .f32) (main_arg1 : FVec F S11x128 .f32) (main_arg2 : FVec F S128 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) (main_arg9 : IVec S2x1600000 32) (main_arg10 : IVec S100000 32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x128 .f32 := Host.absf main_arg1
  let main_cst_0 : FVec F S_ .f32 := constant S_ .f32 0x7F800000#32
  let main_v5 : FVec F S11x128 .f32 := broadcastInDim S11x128 ![] bcast_S_S11x128 main_cst_0
  let main_v6 : IVec S11x128 1 := cmpf .olt main_v4 main_v5
  let main_c_1 : IVec S_ 1 := constantI S_ 1 1#1
  let main_v7 : IVec S_ 1 := (fun x v => Host.reduce IntOp.andi x v reducesTo_S11x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S100000x11 : Shape := ⟨2, ![100000, 11]⟩
abbrev S11x128 : Shape := ⟨2, ![11, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x11 : Shape := ⟨2, ![1700000, 11]⟩
abbrev S1x128 : Shape := ⟨2, ![1, 128]⟩
abbrev S100000x128 : Shape := ⟨2, ![100000, 128]⟩
abbrev S1700000x128 : Shape := ⟨2, ![1700000, 128]⟩
abbrev S4096x128 : Shape := ⟨2, ![4096, 128]⟩
abbrev S100000x1 : Shape := ⟨2, ![100000, 1]⟩
abbrev S4096 : Shape := ⟨1, ![4096]⟩
abbrev S4096x1 : Shape := ⟨2, ![4096, 1]⟩
abbrev S1x1 : Shape := ⟨2, ![1, 1]⟩
abbrev S10000x11 : Shape := ⟨2, ![10000, 11]⟩
abbrev S10000x128 : Shape := ⟨2, ![10000, 128]⟩

abbrev nBuf : Space → Nat
  | .hbm => 111
  | .vmem => 17
  | .smem => 0
  | _ => 0

abbrev bufTy : (tb : Table) → Fin (tcTables nBuf tb) → BufTy
  | .hbm, ⟨0, _⟩ => ⟨S100000x11, .f32⟩
  | .hbm, ⟨1, _⟩ => ⟨S11x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S2x1600000, .i32⟩
  | .hbm, ⟨10, _⟩ => ⟨S100000, .i32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x11, .f32⟩
  | .hbm, ⟨60, _⟩ => ⟨S1700000x1, .f32⟩
  | .hbm, ⟨61, _⟩ => ⟨S1700000x11, .f32⟩
  | .hbm, ⟨62, _⟩ => ⟨S1700000x11, .f32⟩
  | .hbm, ⟨63, _⟩ => ⟨S_, .f32⟩
  | .hbm, ⟨64, _⟩ => ⟨S100000x11, .f32⟩
  | .hbm, ⟨65, _⟩ => ⟨S1700000x1, .i32⟩
  | .hbm, ⟨66, _⟩ => ⟨S100000x11, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S4096x128, .f32⟩
  | .hbm, ⟨94, _⟩ => ⟨S100000x1, .i32⟩
  | .hbm, ⟨95, _⟩ => ⟨S4096x128, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S4096, .f32⟩
  | .hbm, ⟨100, _⟩ => ⟨S100000x1, .i32⟩
  | .hbm, ⟨101, _⟩ => ⟨S4096, .f32⟩
  | .hbm, ⟨102, _⟩ => ⟨S_, .f32⟩
  | .hbm, ⟨103, _⟩ => ⟨S4096, .f32⟩
  | .hbm, ⟨104, _⟩ => ⟨S4096, .f32⟩
  | .hbm, ⟨105, _⟩ => ⟨S4096x1, .f32⟩
  | .hbm, ⟨106, _⟩ => ⟨S4096x128, .f32⟩
  | .hbm, ⟨107, _⟩ => ⟨S4096x128, .f32⟩
  | .hbm, ⟨108, _⟩ => ⟨S1x128, .f32⟩
  | .hbm, ⟨109, _⟩ => ⟨S1x1, .f32⟩
  | .hbm, ⟨110, _⟩ => ⟨S4096x1, .f32⟩
  | .local _ .vmem, ⟨0, _⟩ => ⟨S10000x11, .f32⟩
  | .local _ .vmem, ⟨1, _⟩ => ⟨S10000x11, .f32⟩
  | .local _ .vmem, ⟨2, _⟩ => ⟨S11x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S4096x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S4096x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst : Ref sig .tc := ⟨.hbm, 18, rfl⟩
abbrev main_call0_v7 : Ref sig .tc := ⟨.hbm, 19, rfl⟩
abbrev main_call0_cst_0 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_cst_1 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst_2 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_v14 : Ref sig .tc := ⟨.hbm, 31, rfl⟩
abbrev main_call0_c : Ref sig .tc := ⟨.hbm, 32, rfl⟩
abbrev main_call0_v15 : Ref sig .tc := ⟨.hbm, 33, rfl⟩
abbrev main_call0_v16 : Ref sig .tc := ⟨.hbm, 34, rfl⟩
abbrev main_call0_c_3 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_c_4 : Ref sig .tc := ⟨.hbm, 41, rfl⟩
abbrev main_call0_v22 : Ref sig .tc := ⟨.hbm, 42, rfl⟩
abbrev main_call0_v23 : Ref sig .tc := ⟨.hbm, 43, rfl⟩
abbrev main_call0_c_5 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_c_6 : Ref sig .tc := ⟨.hbm, 51, rfl⟩
abbrev main_call0_v30 : Ref sig .tc := ⟨.hbm, 52, rfl⟩
abbrev main_call0_v31 : Ref sig .tc := ⟨.hbm, 53, rfl⟩
abbrev main_call0_c_7 : Ref sig .tc := ⟨.hbm, 54, rfl⟩
abbrev main_call0_v32 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_cst_8 : Ref sig .tc := ⟨.hbm, 63, rfl⟩
abbrev main_call0_v40 : Ref sig .tc := ⟨.hbm, 64, rfl⟩
abbrev main_call0_v41 : Ref sig .tc := ⟨.hbm, 65, rfl⟩
abbrev main_call0_v42 : Ref sig .tc := ⟨.hbm, 66, rfl⟩
abbrev main_call0_v43 : Ref sig .tc := ⟨.hbm, 67, rfl⟩
abbrev main_call0_v44 : Ref sig .tc := ⟨.hbm, 68, rfl⟩
abbrev main_call0_v45 : Ref sig .tc := ⟨.hbm, 69, rfl⟩
abbrev main_call0_c_9 : Ref sig .tc := ⟨.hbm, 70, rfl⟩
abbrev main_call0_v46 : Ref sig .tc := ⟨.hbm, 71, rfl⟩
abbrev main_call0_v47 : Ref sig .tc := ⟨.hbm, 72, rfl⟩
abbrev main_call0_c_10 : Ref sig .tc := ⟨.hbm, 73, rfl⟩
abbrev main_call0_v48 : Ref sig .tc := ⟨.hbm, 74, rfl⟩
abbrev main_call0_v49 : Ref sig .tc := ⟨.hbm, 75, rfl⟩
abbrev main_call0_v50 : Ref sig .tc := ⟨.hbm, 76, rfl⟩
abbrev main_call0_v51 : Ref sig .tc := ⟨.hbm, 77, rfl⟩
abbrev main_call0_v52 : Ref sig .tc := ⟨.hbm, 78, rfl⟩
abbrev main_call0_v53 : Ref sig .tc := ⟨.hbm, 79, rfl⟩
abbrev main_call0_v54 : Ref sig .tc := ⟨.hbm, 80, rfl⟩
abbrev main_call0_v55 : Ref sig .tc := ⟨.hbm, 81, rfl⟩
abbrev main_call0_cst_11 : Ref sig .tc := ⟨.hbm, 82, rfl⟩
abbrev main_call0_v56 : Ref sig .tc := ⟨.hbm, 83, rfl⟩
abbrev main_call0_v57 : Ref sig .tc := ⟨.hbm, 84, rfl⟩
abbrev main_call0_v58 : Ref sig .tc := ⟨.hbm, 85, rfl⟩
abbrev main_call0_v59 : Ref sig .tc := ⟨.hbm, 86, rfl⟩
abbrev main_call0_v60 : Ref sig .tc := ⟨.hbm, 87, rfl⟩
abbrev main_call0_v61 : Ref sig .tc := ⟨.hbm, 88, rfl⟩
abbrev main_call0_call1_cst : Ref sig .tc := ⟨.hbm, 89, rfl⟩
abbrev main_call0_call1_v0 : Ref sig .tc := ⟨.hbm, 90, rfl⟩
abbrev main_call0_v62 : Ref sig .tc := ⟨.hbm, 91, rfl⟩
abbrev main_call0_cst_12 : Ref sig .tc := ⟨.hbm, 92, rfl⟩
abbrev main_call0_v63 : Ref sig .tc := ⟨.hbm, 93, rfl⟩
abbrev main_call0_v64 : Ref sig .tc := ⟨.hbm, 94, rfl⟩
abbrev main_call0_v65 : Ref sig .tc := ⟨.hbm, 95, rfl⟩
abbrev main_call0_cst_13 : Ref sig .tc := ⟨.hbm, 96, rfl⟩
abbrev main_call0_v66 : Ref sig .tc := ⟨.hbm, 97, rfl⟩
abbrev main_call0_cst_14 : Ref sig .tc := ⟨.hbm, 98, rfl⟩
abbrev main_call0_v67 : Ref sig .tc := ⟨.hbm, 99, rfl⟩
abbrev main_call0_v68 : Ref sig .tc := ⟨.hbm, 100, rfl⟩
abbrev main_call0_v69 : Ref sig .tc := ⟨.hbm, 101, rfl⟩
abbrev main_call0_cst_15 : Ref sig .tc := ⟨.hbm, 102, rfl⟩
abbrev main_call0_v70 : Ref sig .tc := ⟨.hbm, 103, rfl⟩
abbrev main_call0_v71 : Ref sig .tc := ⟨.hbm, 104, rfl⟩
abbrev main_call0_v72 : Ref sig .tc := ⟨.hbm, 105, rfl⟩
abbrev main_call0_v73 : Ref sig .tc := ⟨.hbm, 106, rfl⟩
abbrev main_call0_v74 : Ref sig .tc := ⟨.hbm, 107, rfl⟩
abbrev main_call0_v75 : Ref sig .tc := ⟨.hbm, 108, rfl⟩
abbrev main_call0_v76 : Ref sig .tc := ⟨.hbm, 109, rfl⟩
abbrev main_v0 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4096x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x11_0_1 : S1700000x1.BroadcastsInDim S1700000x11 (![0, 1] : Fin 2 → Fin S1700000x11.rank)
  bcast_S_S100000x11 : S_.BroadcastsInDim S100000x11 (![] : Fin 0 → Fin S100000x11.rank)
  shapeCasts_S128_S1x128 : S128.ShapeCasts S1x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S4096x128 : S_.BroadcastsInDim S4096x128 (![] : Fin 0 → Fin S4096x128.rank)
  bcast_S100000_S100000x1_0 : S100000.BroadcastsInDim S100000x1 (![0] : Fin 1 → Fin S100000x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  shapeCasts_S1_S1x1 : S1.ShapeCasts S1x1
  inb_S10000x11_S10000x11_0_0 : ∀ a, (![0, 0] : Fin 2 → Nat) a + S10000x11.size a ≤ S10000x11.size a
  h_S10000x11 : 0 < S10000x11.numel
  shapeCasts_S10000x11_S10000x11 : S10000x11.ShapeCasts S10000x11
  bitsLt_bf16_f32 : FTy.bits .bf16 < FTy.bits .f32
  inb_S11x128_S11x128_0_0 : ∀ a, (![0, 0] : Fin 2 → Nat) a + S11x128.size a ≤ S11x128.size a
  h_S11x128 : 0 < S11x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x11_S1700000x1_S1700000x11_1_0_n_n_0_1_111_wf : GatherDims.WF S100000x11 S1700000x1 S1700000x11 [1] [0] [] [0] [] 1 ![1, 11]
  scatter_S100000x11_S1700000x1_S1700000x11_1_0_0_1_wf : ScatterDims.WF S100000x11 S1700000x1 S1700000x11 [1] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S4096x128_S100000x1_S100000x128_1_0_0_1_wf : ScatterDims.WF S4096x128 S100000x1 S100000x128 [1] [0] [0] 1
  scatter_S4096_S100000x1_S100000_n_0_0_1_wf : ScatterDims.WF S4096 S100000x1 S100000 [] [0] [0] 1
  dot_S10000x11_S11x128_S10000x128_1_0_0_1_n_n_wf : DotDims.WF S10000x11 S11x128 S10000x128 [1] [0] [0] [1] [] []
  dot_S10000x128_S128x128_S10000x128_1_0_0_1_n_n_wf : DotDims.WF S10000x128 S128x128 S10000x128 [1] [0] [0] [1] [] []
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x11.size a ≤ S100000x11.size a
  hwx0_0 : ∀ i : grid0.Coords, EltTy.bits .f32 = 32 ∨ (Rect.block (s := S100000x11) S10000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x128.size a ≤ S11x128.size a
  hwx0_1 : ∀ i : grid0.Coords, EltTy.bits .f32 = 32 ∨ (Rect.block (s := S11x128) S11x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S4096x128.size a
  hwx2_0 : ∀ i : grid2.Coords, EltTy.bits .f32 = 32 ∨ (Rect.block (s := S4096x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4096x1.size a ≤ S4096x1.size a
  hwx2_5 : ∀ i : grid2.Coords, EltTy.bits .f32 = 32 ∨ (Rect.block (s := S4096x1) S4096x1.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x11_S1700000x1_S1700000x11_1_0_n_n_0_1_111 : GatherDims S100000x11 S1700000x1 S1700000x11 where
  offsetDims := [1]
  collapsedSliceDims := [0]
  operandBatchingDims := []
  startIndicesBatchingDims := []
  startIndexMap := [0]
  indexVectorDim := 1
  sliceSizes := ![1, 11]
  wf := gather_S100000x11_S1700000x1_S1700000x11_1_0_n_n_0_1_111_wf
def scatter_S100000x11_S1700000x1_S1700000x11_1_0_0_1 : ScatterDims S100000x11 S1700000x1 S1700000x11 where
  updateWindowDims := [1]
  insertedWindowDims := [0]
  scatterDimsToOperandDims := [0]
  indexVectorDim := 1
  wf := scatter_S100000x11_S1700000x1_S1700000x11_1_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S10000x11_S11x128_S10000x128_1_0_0_1_n_n : DotDims S10000x11 S11x128 S10000x128 where
  lhsContracting := [1]
  rhsContracting := [0]
  lhsNonContracting := [0]
  rhsNonContracting := [1]
  lhsBatch := []
  rhsBatch := []
  wf := dot_S10000x11_S11x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_call0_v42) S10000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S11x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v43) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v44) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v74) S4096x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v75) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v76) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0) S4096x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x11 : Shape := ⟨2, ![100000, 11]⟩
abbrev S11x128 : Shape := ⟨2, ![11, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S4096x128 : Shape := ⟨2, ![4096, 128]⟩
abbrev S100000x1 : Shape := ⟨2, ![100000, 1]⟩
abbrev S4096 : Shape := ⟨1, ![4096]⟩
abbrev S4096x1 : Shape := ⟨2, ![4096, 1]⟩
abbrev S1x1 : Shape := ⟨2, ![1, 1]⟩

abbrev nBuf : Space → Nat
  | .hbm => 157
  | .vmem => 0
  | .smem => 0
  | _ => 0

abbrev hbmTy0_0 (i : Nat) : BufTy := match i % 128 with
  | 0 => ⟨S100000x11, .f32⟩
  | 1 => ⟨S11x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S2x1600000, .i32⟩
  | 10 => ⟨S100000, .i32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S100000x128, .f32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x11, .f32⟩

abbrev hbmTy0_1 (i : Nat) : BufTy := match i % 128 with
  | 0 => ⟨S100000x128, .f32⟩
  | 1 => ⟨S100000x128, .f32⟩
  | 2 => ⟨S_, .f32⟩
  | 3 => ⟨S4096x128, .f32⟩
  | 4 => ⟨S100000x1, .i32⟩
  | 5 => ⟨S4096x128, .f32⟩
  | 6 => ⟨S_, .f32⟩
  | 7 => ⟨S100000, .f32⟩
  | 8 => ⟨S_, .f32⟩
  | 9 => ⟨S4096, .f32⟩
  | 10 => ⟨S100000x1, .i32⟩
  | 11 => ⟨S4096, .f32⟩
  | 12 => ⟨S_, .f32⟩
  | 13 => ⟨S4096, .f32⟩
  | 14 => ⟨S4096, .f32⟩
  | 15 => ⟨S4096x1, .f32⟩
  | 16 => ⟨S4096x128, .f32⟩
  | 17 => ⟨S4096x128, .f32⟩
  | 18 => ⟨S4096x128, .f32⟩
  | 19 => ⟨S1x128, .f32⟩
  | 20 => ⟨S4096x128, .f32⟩
  | 21 => ⟨S4096x128, .f32⟩
  | 22 => ⟨S_, .f32⟩
  | 23 => ⟨S4096x128, .f32⟩
  | 24 => ⟨S4096x128, .f32⟩
  | 25 => ⟨S4096x1, .f32⟩
  | 26 => ⟨S1x1, .f32⟩
  | 27 => ⟨S4096x1, .f32⟩
  | 28 => ⟨S4096x1, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_c_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call3_cst : Ref sig .tc := ⟨.hbm, 127, rfl⟩
abbrev main_call3_v0 : Ref sig .tc := ⟨.hbm, 128, rfl⟩
abbrev main_v88 : Ref sig .tc := ⟨.hbm, 129, rfl⟩
abbrev main_cst_20 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_21 : Ref sig .tc := ⟨.hbm, 134, rfl⟩
abbrev main_v92 : Ref sig .tc := ⟨.hbm, 135, rfl⟩
abbrev main_cst_22 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_23 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_call4_cst : Ref sig .tc := ⟨.hbm, 150, rfl⟩
abbrev main_call4_v0 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S4096x128 : S_.BroadcastsInDim S4096x128 (![] : Fin 0 → Fin S4096x128.rank)
  bcast_S100000_S100000x1_0 : S100000.BroadcastsInDim S100000x1 (![0] : Fin 1 → Fin S100000x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S100000x11_S11x128_S100000x128_1_0_0_1_n_n_wf : DotDims.WF S100000x11 S11x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S4096x128_S100000x1_S100000x128_1_0_0_1_wf : ScatterDims.WF S4096x128 S100000x1 S100000x128 [1] [0] [0] 1
  scatter_S4096_S100000x1_S100000_n_0_0_1_wf : ScatterDims.WF S4096 S100000x1 S100000 [] [0] [0] 1
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []

variable [Facts₀]

def dot_S100000x11_S11x128_S100000x128_1_0_0_1_n_n : DotDims S100000x11 S11x128 S100000x128 where
  lhsContracting := [1]
  rhsContracting := [0]
  lhsNonContracting := [0]
  rhsNonContracting := [1]
  lhsBatch := []
  rhsBatch := []
  wf := dot_S100000x11_S11x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

class Facts : Prop extends Facts₀ where

variable [Facts]
-- ==== Proof.KernelRun.lean ====
/-
  The idealized kernel's run with its result NAMED. The program is three kernel launches among two stretches of host
  operations; its generated frame proof already carries, at the last segment boundary, the contents of every buffer
  (`Gen.W5`: the launch memory folded through the host stretches and through what each launch writes back). Here the
  same run is stated with one more conjunct: the result buffer ends at that fold's value. What that value IS — the
  three launches' outputs as whole-array functions, the host stretches applied in between — is read in the modules
  that import this one.
-/
import proofs.«161302_j23708219474023_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result buffer at
    the last boundary's contents and every argument array as launched. -/
theorem run_named : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Named

end
-- ==== Proof.HostK.lean ====
/-
  The idealized kernel's host operations, as functions of the argument arrays.

  Before the first launch the host builds the edge lists with self loops (sources `rowW`, targets `colW`), the
  symmetric normalisation `edgeNorm e = d(row e)^(-1/2) · d(col e)^(-1/2)` from the in-degrees `d`, and the
  AGGREGATED INPUT FEATURES `aggregated x = ∑_{col e = i} x[row e] · edgeNorm e` (layer 1 aggregates the 11-wide rows
  BEFORE the dense product). Between the second and the third launch it gathers the layer-2 product along the
  edges, scales, scatter-adds, adds the bias, clamps at zero and mean-pools per graph (`pooled`).
  Each statement below reads one buffer at a segment boundary of the run as such a function.
-/
import proofs.«161302_j23708219474023_2_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

/-- Edge sources: the first row of the edge list, then one self loop per node. -/
def rowW (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- Edge targets: the second row of the edge list, then one self loop per node. -/
def colW (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A negative index counts from the end: `v < 0 ? v + 100000 : v`. -/
def wrapIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A per-edge vector as a one-column array. -/
def asColumn {α : Type} (v : S1700000.Idx → α) : S1700000x1.Idx → α :=
  broadcastInDim S1700000x1 ![0] bcast_S1700000_S1700000x1_0 v

/-- In-degrees with self loops: one per edge, added at the edge's target. -/
def degree (colv : IVec S1700000 32) : FVec Ideal S100000 .f32 :=
  Host.scatterAdd scatter_S100000_S1700000x1_S1700000_n_0_0_1
    (broadcastInDim S100000 ![] bcast_S_S100000 (constant S_ .f32 0x00000000#32)) (asColumn colv)
    (broadcastInDim S1700000 ![] bcast_S_S1700000 (constant S_ .f32 0x3F800000#32))

/-- `d^(-1/2)` where the degree is positive, else `0`. -/
def invSqrtDeg (colv : IVec S1700000 32) : FVec Ideal S100000 .f32 :=
  select (cmpf .ogt (degree colv) (broadcastInDim S100000 ![] bcast_S_S100000 (constant S_ .f32 0x00000000#32)))
    (Host.rsqrt (degree colv)) (broadcastInDim S100000 ![] bcast_S_S100000 (id (constant S_ .f32 0x00000000#32)))

/-- The symmetric normalisation of an edge. -/
def edgeNorm (rowv colv : IVec S1700000 32) : FVec Ideal S1700000 .f32 :=
  mulf (Host.gather gather_S100000_S1700000x1_S1700000_n_0_n_n_0_1_1 (invSqrtDeg colv) (asColumn (wrapIdx rowv)))
    (Host.gather gather_S100000_S1700000x1_S1700000_n_0_n_n_0_1_1 (invSqrtDeg colv) (asColumn (wrapIdx colv)))

/-- Layer 1's aggregated input features. -/
def aggregated (x : FVec Ideal S100000x11 .f32) (rowv colv : IVec S1700000 32) : FVec Ideal S100000x11 .f32 :=
  Host.scatterAdd scatter_S100000x11_S1700000x1_S1700000x11_1_0_0_1
    (broadcastInDim S100000x11 ![] bcast_S_S100000x11 (constant S_ .f32 0x00000000#32)) (asColumn colv)
    (mulf (Host.gather gather_S100000x11_S1700000x1_S1700000x11_1_0_n_n_0_1_111 x (asColumn (wrapIdx rowv)))
      (broadcastInDim S1700000x11 ![0, 1] bcast_S1700000x1_S1700000x11_0_1 (asColumn (edgeNorm rowv colv))))
/-- Layer 2 after its dense product `X`: aggregate along the edges, add the bias, clamp at zero, mean-pool per graph. -/
def pooled (X : FVec Ideal S100000x128 .f32) (rowv colv : IVec S1700000 32) (nrm : FVec Ideal S1700000 .f32)
    (b2 : FVec Ideal S128 .f32) (batch : IVec S100000 32) : FVec Ideal S4096x128 .f32 :=
  Host.divf
    (Host.scatterAdd scatter_S4096x128_S100000x1_S100000x128_1_0_0_1
      (broadcastInDim S4096x128 ![] bcast_S_S4096x128 (constant S_ .f32 0x00000000#32))
      (broadcastInDim S100000x1 ![0] bcast_S100000_S100000x1_0 batch)
      (maximumf
        (addf
          (Host.scatterAdd scatter_S100000x128_S1700000x1_S1700000x128_1_0_0_1
            (broadcastInDim S100000x128 ![] bcast_S_S100000x128 (constant S_ .f32 0x00000000#32)) (asColumn colv)
            (mulf (Host.gather gather_S100000x128_S1700000x1_S1700000x128_1_0_n_n_0_1_1128 X (asColumn (wrapIdx rowv)))
              (broadcastInDim S1700000x128 ![0, 1] bcast_S1700000x1_S1700000x128_0_1 (asColumn nrm))))
          (broadcastInDim S100000x128 ![0, 1] bcast_S1x128_S100000x128_0_1 (broadcastInDim S1x128 ![1] bcast_S128_S1x128_1 b2)))
        (broadcastInDim S100000x128 ![] bcast_S_S100000x128 (constant S_ .f32 0x00000000#32))))
    (broadcastInDim S4096x128 ![0, 1] bcast_S4096x1_S4096x128_0_1
      (broadcastInDim S4096x1 ![0] bcast_S4096_S4096x1_0
        (maximumf
          (Host.scatterAdd scatter_S4096_S100000x1_S100000_n_0_0_1
            (broadcastInDim S4096 ![] bcast_S_S4096 (constant S_ .f32 0x00000000#32))
            (broadcastInDim S100000x1 ![0] bcast_S100000_S100000x1_0 batch)
            (broadcastInDim S100000 ![] bcast_S_S100000 (constant S_ .f32 0x3F800000#32)))
          (broadcastInDim S4096 ![] bcast_S_S4096 (constant S_ .f32 0x3F800000#32)))))

section Stretches
variable {F : FTy → Type} [FloatOps F]

/-- The host operations before the first launch, in two stretches: the edge lists, then everything built on them. -/
abbrev stretchA : List (HloOp τ sig (Elt F)) :=
  [ StableHlo.TRef.nullary (.of main_call0_v0 : StableHlo.TRef sig ⟨S100000, .i32⟩) (iotaInDim S100000 32 0),
    StableHlo.TRef.unary (.of main_arg9 : StableHlo.TRef sig ⟨S2x1600000, .i32⟩) (.of main_call0_v1 : StableHlo.TRef sig ⟨S1x1600000, .i32⟩) (extractStridedSlice S1x1600000 ![0, 0] · slices_S2x1600000_S1x1600000_0_0),
    StableHlo.TRef.reshape (.of main_call0_v1 : StableHlo.TRef sig ⟨S1x1600000, .i32⟩) (.of main_call0_v2 : StableHlo.TRef sig ⟨S1600000, .i32⟩) rfl shapeCasts_S1x1600000_S1600000,
    StableHlo.TRef.binary (.of main_call0_v2 : StableHlo.TRef sig ⟨S1600000, .i32⟩) (.of main_call0_v0 : StableHlo.TRef sig ⟨S100000, .i32⟩) (.of main_call0_v3 : StableHlo.TRef sig ⟨S1700000, .i32⟩) (fun a b => concatenate S1700000 0 [⟨S1600000, a⟩, ⟨S100000, b⟩] concatenates_S1600000_S100000_S1700000_d0),
    StableHlo.TRef.unary (.of main_arg9 : StableHlo.TRef sig ⟨S2x1600000, .i32⟩) (.of main_call0_v4 : StableHlo.TRef sig ⟨S1x1600000, .i32⟩) (extractStridedSlice S1x1600000 ![1, 0] · slices_S2x1600000_S1x1600000_1_0),
    StableHlo.TRef.reshape (.of main_call0_v4 : StableHlo.TRef sig ⟨S1x1600000, .i32⟩) (.of main_call0_v5 : StableHlo.TRef sig ⟨S1600000, .i32⟩) rfl shapeCasts_S1x1600000_S1600000,
    StableHlo.TRef.binary (.of main_call0_v5 : StableHlo.TRef sig ⟨S1600000, .i32⟩) (.of main_call0_v0 : StableHlo.TRef sig ⟨S100000, .i32⟩) (.of main_call0_v6 : StableHlo.TRef sig ⟨S1700000, .i32⟩) (fun a b => concatenate S1700000 0 [⟨S1600000, a⟩, ⟨S100000, b⟩] concatenates_S1600000_S100000_S1700000_d0) ]
abbrev stretchB : List (HloOp τ sig (Elt F)) :=
  [ StableHlo.TRef.nullary (.of main_call0_cst : StableHlo.TRef sig ⟨S_, .f32⟩) (constant S_ .f32 0x3F800000#32),
    StableHlo.TRef.unary (.of main_call0_cst : StableHlo.TRef sig ⟨S_, .f32⟩) (.of main_call0_v7 : StableHlo.TRef sig ⟨S1700000, .f32⟩) (broadcastInDim S1700000 ![] bcast_S_S1700000),
    StableHlo.TRef.nullary (.of main_call0_cst_0 : StableHlo.TRef sig ⟨S_, .f32⟩) (constant S_ .f32 0x00000000#32),
    StableHlo.TRef.unary (.of main_call0_cst_0 : StableHlo.TRef sig ⟨S_, .f32⟩) (.of main_call0_v8 : StableHlo.TRef sig ⟨S100000, .f32⟩) (broadcastInDim S100000 ![] bcast_S_S100000),
    StableHlo.TRef.unary (.of main_call0_v6 : StableHlo.TRef sig ⟨S1700000, .i32⟩) (.of main_call0_v9 : StableHlo.TRef sig ⟨S1700000x1, .i32⟩) (broadcastInDim S1700000x1 ![0] bcast_S1700000_S1700000x1_0),
    StableHlo.TRef.ternary (.of main_call0_v8 : StableHlo.TRef sig ⟨S100000, .f32⟩) (.of main_call0_v9 : StableHlo.TRef sig ⟨S1700000x1, .i32⟩) (.of main_call0_v7 : StableHlo.TRef sig ⟨S1700000, .f32⟩) (.of main_call0_v10 : StableHlo.TRef sig ⟨S100000, .f32⟩) (fun x i u => Host.scatterAdd scatter_S100000_S1700000x1_S1700000_n_0_0_1 x i u),
    StableHlo.TRef.nullary (.of main_call0_cst_1 : StableHlo.TRef sig ⟨S_, .f32⟩) (constant S_ .f32 0x00000000#32),
    StableHlo.TRef.unary (.of main_call0_cst_1 : StableHlo.TRef sig ⟨S_, .f32⟩) (.of main_call0_v11 : StableHlo.TRef sig ⟨S100000, .f32⟩) (broadcastInDim S100000 ![] bcast_S_S100000),
    StableHlo.TRef.binary (.of main_call0_v10 : StableHlo.TRef sig ⟨S100000, .f32⟩) (.of main_call0_v11 : StableHlo.TRef sig ⟨S100000, .f32⟩) (.of main_call0_v12 : StableHlo.TRef sig ⟨S100000, .i1⟩) (cmpf .ogt),
    StableHlo.TRef.unary (.of main_call0_v10 : StableHlo.TRef sig ⟨S100000, .f32⟩) (.of main_call0_v13 : StableHlo.TRef sig ⟨S100000, .f32⟩) Host.rsqrt,
    StableHlo.TRef.nullary (.of main_call0_cst_2 : StableHlo.TRef sig ⟨S_, .f32⟩) (constant S_ .f32 0x00000000#32),
    StableHlo.TRef.unary (.of main_call0_cst_2 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S100000, .f32⟩) (broadcastInDim S100000 ![] bcast_S_S100000),
    StableHlo.TRef.ternary (.of main_call0_v12 : StableHlo.TRef sig ⟨S100000, .i1⟩) (.of main_call0_v13 : StableHlo.TRef sig ⟨S100000, .f32⟩) (.of main_call0_call0_v1 : StableHlo.TRef sig ⟨S100000, .f32⟩) (.of main_call0_v14 : StableHlo.TRef sig ⟨S100000, .f32⟩) select,
    StableHlo.TRef.nullary (.of main_call0_c : StableHlo.TRef sig ⟨S_, .i32⟩) (constantI S_ 32 0#32),
    StableHlo.TRef.unary (.of main_call0_c : StableHlo.TRef sig ⟨S_, .i32⟩) (.of main_call0_v15 : StableHlo.TRef sig ⟨S1700000, .i32⟩) (broadcastInDim S1700000 ![] bcast_S_S1700000),
    StableHlo.TRef.binary (.of main_call0_v3 : StableHlo.TRef sig ⟨S1700000, .i32⟩) (.of main_call0_v15 : StableHlo.TRef sig ⟨S1700000, .i32⟩) (.of main_call0_v16 : StableHlo.TRef sig ⟨S1700000, .i1⟩) (cmpi .slt),
    StableHlo.TRef.nullary (.of main_call0_c_3 : StableHlo.TRef sig ⟨S_, .i32⟩) (constantI S_ 32 100000#32),
    StableHlo.TRef.unary (.of main_call0_c_3 : StableHlo.TRef sig ⟨S_, .i32⟩) (.of main_call0_v17 : StableHlo.TRef sig ⟨S1700000, .i32⟩) (broadcastInDim S1700000 ![] bcast_S_S1700000),
    StableHlo.TRef.binary (.of main_call0_v3 : StableHlo.TRef sig ⟨S1700000, .i32⟩) (.of main_call0_v17 : StableHlo.TRef sig ⟨S1700000, .i32⟩) (.of main_call0_v18 : StableHlo.TRef sig ⟨S1700000, .i32⟩) addi,
    StableHlo.TRef.ternary (.of main_call0_v16 : StableHlo.TRef sig ⟨S1700000, .i1⟩) (.of main_call0_v18 : StableHlo.TRef sig ⟨S1700000, .i32⟩) (.of main_call0_v3 : StableHlo.TRef sig ⟨S1700000, .i32⟩) (.of main_call0_v19 : StableHlo.TRef sig ⟨S1700000, .i32⟩) select,
    StableHlo.TRef.unary (.of main_call0_v19 : StableHlo.TRef sig ⟨S1700000, .i32⟩) (.of main_call0_v20 : StableHlo.TRef sig ⟨S1700000x1, .i32⟩) (broadcastInDim S1700000x1 ![0] bcast_S1700000_S1700000x1_0),
    StableHlo.TRef.binary main_call0_call0.v2 (.of main_call0_v20 : StableHlo.TRef sig ⟨S1700000x1, .i32⟩) (.of main_call0_v21 : StableHlo.TRef sig ⟨S1700000, .f32⟩) (fun x i => Host.gather gather_S100000_S1700000x1_S1700000_n_0_n_n_0_1_1 x i),
    StableHlo.TRef.nullary (.of main_call0_c_4 : StableHlo.TRef sig ⟨S_, .i32⟩) (constantI S_ 32 0#32),
    StableHlo.TRef.unary (.of main_call0_c_4 : StableHlo.TRef sig ⟨S_, .i32⟩) (.of main_call0_v22 : StableHlo.TRef sig ⟨S1700000, .i32⟩) (broadcastInDim S1700000 ![] bcast_S_S1700000),
    StableHlo.TRef.binary (.of main_call0_v6 : StableHlo.TRef sig ⟨S1700000, .i32⟩) (.of main_call0_v22 : StableHlo.TRef sig ⟨S1700000, .i32⟩) (.of main_call0_v23 : StableHlo.TRef sig ⟨S1700000, .i1⟩) (cmpi .slt),
    StableHlo.TRef.nullary (.of main_call0_c_5 : StableHlo.TRef sig ⟨S_, .i32⟩) (constantI S_ 32 100000#32),
    StableHlo.TRef.unary (.of main_call0_c_5 : StableHlo.TRef sig ⟨S_, .i32⟩) (.of main_call0_v24 : StableHlo.TRef sig ⟨S1700000, .i32⟩) (broadcastInDim S1700000 ![] bcast_S_S1700000),
    StableHlo.TRef.binary (.of main_call0_v6 : StableHlo.TRef sig ⟨S1700000, .i32⟩) (.of main_call0_v24 : StableHlo.TRef sig ⟨S1700000, .i32⟩) (.of main_call0_v25 : StableHlo.TRef sig ⟨S1700000, .i32⟩) addi,
    StableHlo.TRef.ternary (.of main_call0_v23 : StableHlo.TRef sig ⟨S1700000, .i1⟩) (.of main_call0_v25 : StableHlo.TRef sig ⟨S1700000, .i32⟩) (.of main_call0_v6 : StableHlo.TRef sig ⟨S1700000, .i32⟩) (.of main_call0_v26 : StableHlo.TRef sig ⟨S1700000, .i32⟩) select,
    StableHlo.TRef.unary (.of main_call0_v26 : StableHlo.TRef sig ⟨S1700000, .i32⟩) (.of main_call0_v27 : StableHlo.TRef sig ⟨S1700000x1, .i32⟩) (broadcastInDim S1700000x1 ![0] bcast_S1700000_S1700000x1_0),
    StableHlo.TRef.binary main_call0_call0.v2 (.of main_call0_v27 : StableHlo.TRef sig ⟨S1700000x1, .i32⟩) (.of main_call0_v28 : StableHlo.TRef sig ⟨S1700000, .f32⟩) (fun x i => Host.gather gather_S100000_S1700000x1_S1700000_n_0_n_n_0_1_1 x i),
    StableHlo.TRef.binary (.of main_call0_v21 : StableHlo.TRef sig ⟨S1700000, .f32⟩) (.of main_call0_v28 : StableHlo.TRef sig ⟨S1700000, .f32⟩) (.of main_call0_v29 : StableHlo.TRef sig ⟨S1700000, .f32⟩) mulf,
    StableHlo.TRef.nullary (.of main_call0_c_6 : StableHlo.TRef sig ⟨S_, .i32⟩) (constantI S_ 32 0#32),
    StableHlo.TRef.unary (.of main_call0_c_6 : StableHlo.TRef sig ⟨S_, .i32⟩) (.of main_call0_v30 : StableHlo.TRef sig ⟨S1700000, .i32⟩) (broadcastInDim S1700000 ![] bcast_S_S1700000),
    StableHlo.TRef.binary (.of main_call0_v3 : StableHlo.TRef sig ⟨S1700000, .i32⟩) (.of main_call0_v30 : StableHlo.TRef sig ⟨S1700000, .i32⟩) (.of main_call0_v31 : StableHlo.TRef sig ⟨S1700000, .i1⟩) (cmpi .slt),
    StableHlo.TRef.nullary (.of main_call0_c_7 : StableHlo.TRef sig ⟨S_, .i32⟩) (constantI S_ 32 100000#32),
    StableHlo.TRef.unary (.of main_call0_c_7 : StableHlo.TRef sig ⟨S_, .i32⟩) (.of main_call0_v32 : StableHlo.TRef sig ⟨S1700000, .i32⟩) (broadcastInDim S1700000 ![] bcast_S_S1700000),
    StableHlo.TRef.binary (.of main_call0_v3 : StableHlo.TRef sig ⟨S1700000, .i32⟩) (.of main_call0_v32 : StableHlo.TRef sig ⟨S1700000, .i32⟩) (.of main_call0_v33 : StableHlo.TRef sig ⟨S1700000, .i32⟩) addi,
    StableHlo.TRef.ternary (.of main_call0_v31 : StableHlo.TRef sig ⟨S1700000, .i1⟩) (.of main_call0_v33 : StableHlo.TRef sig ⟨S1700000, .i32⟩) (.of main_call0_v3 : StableHlo.TRef sig ⟨S1700000, .i32⟩) (.of main_call0_v34 : StableHlo.TRef sig ⟨S1700000, .i32⟩) select,
    StableHlo.TRef.unary (.of main_call0_v34 : StableHlo.TRef sig ⟨S1700000, .i32⟩) (.of main_call0_v35 : StableHlo.TRef sig ⟨S1700000x1, .i32⟩) (broadcastInDim S1700000x1 ![0] bcast_S1700000_S1700000x1_0),
    StableHlo.TRef.binary (.of main_arg0 : StableHlo.TRef sig ⟨S100000x11, .f32⟩) (.of main_call0_v35 : StableHlo.TRef sig ⟨S1700000x1, .i32⟩) (.of main_call0_v36 : StableHlo.TRef sig ⟨S1700000x11, .f32⟩) (fun x i => Host.gather gather_S100000x11_S1700000x1_S1700000x11_1_0_n_n_0_1_111 x i),
    StableHlo.TRef.unary (.of main_call0_v29 : StableHlo.TRef sig ⟨S1700000, .f32⟩) (.of main_call0_v37 : StableHlo.TRef sig ⟨S1700000x1, .f32⟩) (broadcastInDim S1700000x1 ![0] bcast_S1700000_S1700000x1_0),
    StableHlo.TRef.unary (.of main_call0_v37 : StableHlo.TRef sig ⟨S1700000x1, .f32⟩) (.of main_call0_v38 : StableHlo.TRef sig ⟨S1700000x11, .f32⟩) (broadcastInDim S1700000x11 ![0, 1] bcast_S1700000x1_S1700000x11_0_1),
    StableHlo.TRef.binary (.of main_call0_v36 : StableHlo.TRef sig ⟨S1700000x11, .f32⟩) (.of main_call0_v38 : StableHlo.TRef sig ⟨S1700000x11, .f32⟩) (.of main_call0_v39 : StableHlo.TRef sig ⟨S1700000x11, .f32⟩) mulf,
    StableHlo.TRef.nullary (.of main_call0_cst_8 : StableHlo.TRef sig ⟨S_, .f32⟩) (constant S_ .f32 0x00000000#32),
    StableHlo.TRef.unary (.of main_call0_cst_8 : StableHlo.TRef sig ⟨S_, .f32⟩) (.of main_call0_v40 : StableHlo.TRef sig ⟨S100000x11, .f32⟩) (broadcastInDim S100000x11 ![] bcast_S_S100000x11),
    StableHlo.TRef.unary (.of main_call0_v6 : StableHlo.TRef sig ⟨S1700000, .i32⟩) (.of main_call0_v41 : StableHlo.TRef sig ⟨S1700000x1, .i32⟩) (broadcastInDim S1700000x1 ![0] bcast_S1700000_S1700000x1_0),
    StableHlo.TRef.ternary (.of main_call0_v40 : StableHlo.TRef sig ⟨S100000x11, .f32⟩) (.of main_call0_v41 : StableHlo.TRef sig ⟨S1700000x1, .i32⟩) (.of main_call0_v39 : StableHlo.TRef sig ⟨S1700000x11, .f32⟩) (.of main_call0_v42 : StableHlo.TRef sig ⟨S100000x11, .f32⟩) (fun x i u => Host.scatterAdd scatter_S100000x11_S1700000x1_S1700000x11_1_0_0_1 x i u),
    StableHlo.TRef.reshape (.of main_arg2 : StableHlo.TRef sig ⟨S128, .f32⟩) (.of main_call0_v43 : StableHlo.TRef sig ⟨S1x128, .f32⟩) rfl shapeCasts_S128_S1x128 ]

theorem hostOps0_split : (hostOps0 : List (HloOp τ sig (Elt F))) = stretchA ++ stretchB := rfl

/-- Running two stretches one after the other. -/
theorem after_append (A B : List (HloOp τ sig (Elt F))) (V : Valuation τ sig (Elt F)) :
    StableHlo.after (A ++ B) V = StableHlo.after B (StableHlo.after A V) := by
  induction A generalizing V with
  | nil => rfl
  | cons a A ih => exact ih _

end Stretches

/-- Contents carried to a buffer's own type and back are unchanged. -/
theorem ofBuf_toBuf {T : BufTy} (x : TRef sig T) (v : T.Contents (Elt Ideal)) :
    x.ofBuf (Val := Elt Ideal) (x.toBuf v) = v := by
  simp [TRef.ofBuf, TRef.toBuf]

/-! ## The second stretch, from any contents `G` at its start -/

theorem stretchB_edgeNorm (G : Valuation τ sig (Elt Ideal)) :
    (StableHlo.after stretchB G (Proc.devRef .tc main_call0_v29) : S1700000.Idx → EReal)
      = edgeNorm (G (Proc.devRef .tc main_call0_v3)) (G (Proc.devRef .tc main_call0_v6)) := by
  unfold edgeNorm invSqrtDeg degree asColumn wrapIdx
  after_results_simp
  simp only [ofBuf_toBuf]
  rfl

theorem stretchB_aggregated (G : Valuation τ sig (Elt Ideal)) :
    (StableHlo.after stretchB G (Proc.devRef .tc main_call0_v42) : S100000x11.Idx → EReal)
      = aggregated (G (Proc.devRef .tc main_arg0)) (G (Proc.devRef .tc main_call0_v3)) (G (Proc.devRef .tc main_call0_v6)) := by
  unfold aggregated edgeNorm invSqrtDeg degree asColumn wrapIdx
  after_results_simp
  simp only [ofBuf_toBuf]
  rfl

theorem stretchB_bias (G : Valuation τ sig (Elt Ideal)) :
    (StableHlo.after stretchB G (Proc.devRef .tc main_call0_v43) : S1x128.Idx → EReal)
      = shapeCast S1x128 (G (Proc.devRef .tc main_arg2)) shapeCasts_S128_S1x128 := by
  after_results_simp
  rfl

/-! ## The third stretch (between the second and the third launch), from any contents `G` at its start -/

theorem stretchC_pooled (G : Valuation τ sig (Elt Ideal)) :
    (StableHlo.after hostOps2 G (Proc.devRef .tc main_call0_v74) : S4096x128.Idx → EReal)
      = pooled (G (Proc.devRef .tc main_call0_v45)) (G (Proc.devRef .tc main_call0_v3)) (G (Proc.devRef .tc main_call0_v6))
          (G (Proc.devRef .tc main_call0_v29)) (G (Proc.devRef .tc main_arg4)) (G (Proc.devRef .tc main_arg10)) := by
  unfold pooled asColumn wrapIdx
  after_results_simp
  simp only [ofBuf_toBuf]
  rfl

theorem stretchC_bias1 (G : Valuation τ sig (Elt Ideal)) :
    (StableHlo.after hostOps2 G (Proc.devRef .tc main_call0_v75) : S1x128.Idx → EReal)
      = shapeCast S1x128 (G (Proc.devRef .tc main_arg6)) shapeCasts_S128_S1x128 := by
  after_results_simp
  rfl

theorem stretchC_bias2 (G : Valuation τ sig (Elt Ideal)) :
    (StableHlo.after hostOps2 G (Proc.devRef .tc main_call0_v76) : S1x1.Idx → EReal)
      = shapeCast S1x1 (G (Proc.devRef .tc main_arg8)) shapeCasts_S1_S1x1 := by
  after_results_simp
  rfl

/-- The third stretch writes neither weight matrix of the head. -/
theorem stretchC_kept (G : Valuation τ sig (Elt Ideal)) (b : Ref sig .tc) (hb : b = main_arg5 ∨ b = main_arg7) :
    StableHlo.after hostOps2 G (Proc.devRef .tc b) = G (Proc.devRef .tc b) := by
  rcases hb with rfl | rfl <;>
  · after_results_simp

variable (m : (ℓ : Loc nD τ sig) → Buf (Elt Ideal) ℓ) (ρ : Dev nD → PrngReg) (c : Dev nD)

/-! ## The first launch's entry: the host operations before it, from the launch memory -/

theorem entry0_rowW : (V1 m ρ c main_call0_v3 : S1700000.Idx → BitVec 32) = rowW (m ((c : Thread nD τ).loc main_arg9)) := by
  show StableHlo.after hostOps0 (W0 m ρ c) (Proc.devRef .tc main_call0_v3) = _
  after_results_simp
  rfl

theorem entry0_colW : (V1 m ρ c main_call0_v6 : S1700000.Idx → BitVec 32) = colW (m ((c : Thread nD τ).loc main_arg9)) := by
  show StableHlo.after hostOps0 (W0 m ρ c) (Proc.devRef .tc main_call0_v6) = _
  after_results_simp
  rfl

/-- The first stretch at the edge lists and at the features. -/
theorem stretchA_rowW : (StableHlo.after stretchA (W0 m ρ c) (Proc.devRef .tc main_call0_v3) : S1700000.Idx → BitVec 32)
    = rowW (m ((c : Thread nD τ).loc main_arg9)) := by
  after_results_simp
  rfl
theorem stretchA_colW : (StableHlo.after stretchA (W0 m ρ c) (Proc.devRef .tc main_call0_v6) : S1700000.Idx → BitVec 32)
    = colW (m ((c : Thread nD τ).loc main_arg9)) := by
  after_results_simp
  rfl
theorem stretchA_kept (b : Ref sig .tc) (hb : b = main_arg0 ∨ b = main_arg2) :
    StableHlo.after stretchA (W0 m ρ c) (Proc.devRef .tc b) = m ((c : Thread nD τ).loc b) := by
  rcases hb with rfl | rfl <;>
  · after_results_simp

theorem entry0_edgeNorm :
    (V1 m ρ c main_call0_v29 : S1700000.Idx → EReal)
      = edgeNorm (rowW (m ((c : Thread nD τ).loc main_arg9))) (colW (m ((c : Thread nD τ).loc main_arg9))) := by
  show StableHlo.after hostOps0 (W0 m ρ c) (Proc.devRef .tc main_call0_v29) = _
  rw [hostOps0_split, after_append, stretchB_edgeNorm, stretchA_rowW, stretchA_colW]

theorem entry0_aggregated :
    (V1 m ρ c main_call0_v42 : S100000x11.Idx → EReal)
      = aggregated (m ((c : Thread nD τ).loc main_arg0)) (rowW (m ((c : Thread nD τ).loc main_arg9)))
          (colW (m ((c : Thread nD τ).loc main_arg9))) := by
  show StableHlo.after hostOps0 (W0 m ρ c) (Proc.devRef .tc main_call0_v42) = _
  rw [hostOps0_split, after_append, stretchB_aggregated, stretchA_rowW, stretchA_colW, stretchA_kept m ρ c main_arg0 (.inl rfl)]

theorem entry0_bias :
    (V1 m ρ c main_call0_v43 : S1x128.Idx → EReal)
      = shapeCast S1x128 (m ((c : Thread nD τ).loc main_arg2)) shapeCasts_S128_S1x128 := by
  show StableHlo.after hostOps0 (W0 m ρ c) (Proc.devRef .tc main_call0_v43) = _
  rw [hostOps0_split, after_append, stretchB_bias, stretchA_kept m ρ c main_arg2 (.inr rfl)]

/-- An argument array is as launched at the first launch's entry. -/
theorem entry0_arg (b : Ref sig .tc) (hb : b = main_arg1 ∨ b = main_arg3 ∨ b = main_arg4 ∨ b = main_arg5 ∨ b = main_arg6
      ∨ b = main_arg7 ∨ b = main_arg8 ∨ b = main_arg10) :
    V1 m ρ c b = m ((c : Thread nD τ).loc b) := by
  rcases hb with rfl | rfl | rfl | rfl | rfl | rfl | rfl | rfl <;>
  · show StableHlo.after hostOps0 (W0 m ρ c) (Proc.devRef .tc _) = _
    after_results_simp

end Cert.KernelIdeal.HostSide

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.Region0.lean ====
/-
  The first launch (layer 1's dense product with bias and clamp), as one whole-array function.

  Its grid has ten points; point `t` reads rows `10000 t … 10000 t + 9999` of the aggregated features `[100000, 11]`,
  the whole weight matrix `[11, 128]` and the whole bias row `[1, 128]`, and writes the same rows of the output
  `[100000, 128]`: `max (a · W + b, 0)` row by row. A row of the result depends on the same row of the features only, so
  the ten blocks together are the dense layer of the whole arrays, and they cover the output.
-/
import proofs.«161302_j23708219474023_2_alg».proof.Proof.Gen.KernelIdeal.Frame
import proofs.«161302_j23708219474023_2_alg».proof.Proof.LibMatProd
import Idealize.ShloMosaic.Lib.Pipeline.Value
import Idealize.ShloMosaic.Lib.ValueIdx

set_option maxRecDepth 16384

noncomputable section

open scoped BigOperators

namespace Cert.KernelIdeal.Layer1Dense

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row broadcast down the block's rows, read at `(p, q)`, is the bias at column `q`. -/
theorem bias_broadcast_apply (x2 : Vec Ideal S1x128 .f32) (p : Fin 10000) (q : Fin 128) :
    broadcastTo S10000x128 x2 broadcasts_S1x128_S10000x128 (ix2 p q) = x2 (ix2 0 q) :=
  broadcastTo_apply x2 broadcasts_S1x128_S10000x128 (ix2 p q) (ix2 0 q) (fun a => by
    match a with
    | ⟨0, _⟩ => show (0 : ℕ) = if (1 : ℕ) = 1 then 0 else _; rw [if_pos rfl]
    | ⟨1, _⟩ => show q.val = if (128 : ℕ) = 1 then 0 else q.val; rw [if_neg (by decide)])

/-- The body's stored value is the dense layer of its three loaded blocks (a change of float format is the identity). -/
theorem payload_eq (x0 : Vec Ideal S10000x11 .f32) (x1 : Vec Ideal S11x128 .f32) (x2 : Vec Ideal S1x128 .f32) :
    k0_pay1 (F := Ideal) x0 x1 x2 = Cert.MatProd.denseRelu x0 x1 x2 := by
  unfold k0_pay1
  rw [shapeCast_self, shapeCast_self]
  funext j
  obtain ⟨p, q, rfl⟩ : ∃ (p : Fin 10000) (q : Fin 128), j = ix2 p q := ⟨j 0, j 1, eq_ix2 j⟩
  exact congrArg₂ max (congrArg₂ (· + ·) (Cert.MatProd.matmul_plain_zero_apply none x0 x1 p q) (bias_broadcast_apply x2 p q)) rfl

/-- The index maps over the grid: the features' block moves with the output's along the rows, the weights and the
    bias stay, and the output's row-block index is at most nine. -/
theorem index_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 9 :=
  (by decide +kernel : ∀ t : Fin grid0.N, _)

/-- Every row block is some point's. -/
theorem index_onto : ∀ q0 : Fin 10, ∃ t : Fin cfg0.N, win0_3.index t = ![q0.val, 0] :=
  (by decide +kernel : ∀ q0 : Fin 10, ∃ t : Fin grid0.N, win0_3.index t = ![q0.val, 0])

/-- WHAT POINT `t` WRITES BACK is block `t` of the dense layer of the three arrays as the launch finds them. -/
theorem flushed_eq (c : Dev nD) (t : Fin cfg0.N) :
    (dat0 V c).flushed 3 t = ((cfg0.win 3).blk t).view.read (Elt Ideal)
      (Cert.MatProd.denseRelu (M := 100000) (K := 11) (N := 128) (V c main_call0_v42) (V c main_arg1) (V c main_call0_v43)) := by
  show (cfg0.win 3).cut (grid0.coords t) ((dat0 V c).after 3 t) = _
  rw [after0_3]
  unfold out0_3
  rw [View.canon_unit_zero zero_offsets]
  simp only [View.ld_unit_zero (S := S10000x11) zero_offsets, View.ld_unit_zero (S := S11x128) zero_offsets,
    View.ld_unit_zero (S := S1x128) zero_offsets]
  rw [payload_eq]
  obtain ⟨e0, e1, e2, e3, e4, e5, e6, e7⟩ := index_facts t
  funext j
  obtain ⟨p, q, rfl⟩ : ∃ (p : Fin 10000) (q : Fin 128), j = ix2 p q := ⟨j 0, j 1, eq_ix2 j⟩
  show Cert.MatProd.denseRelu (M := 10000) (K := 11) (N := 128) (iblk0 V c 0 t) (iblk0 V c 1 t) (iblk0 V c 2 t) (ix2 p q)
    = Cert.MatProd.denseRelu (M := 100000) (K := 11) (N := 128) (V c main_call0_v42) (V c main_arg1) (V c main_call0_v43)
        (((cfg0.win 3).blk t).view.emb (ix2 p q))
  refine Cert.MatProd.denseRelu_block_eq _ _ _ _ _ _ p q _ (fun k => ?_) (fun k => ?_) ?_
  · show V c main_call0_v42 (((cfg0.win 0).blk t).view.emb (ix2 p k))
      = V c main_call0_v42 (ix2 ((((cfg0.win 3).blk t).view.emb (ix2 p q)) 0) k)
    refine congrArg _ (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 11 + 1 * k.val = k.val; omega
  · show V c main_arg1 (((cfg0.win 1).blk t).view.emb (ix2 k q))
      = V c main_arg1 (ix2 k ((((cfg0.win 3).blk t).view.emb (ix2 p q)) 1))
    refine congrArg _ (funext fun a => Fin.ext ?_)
    match a with
    | ⟨0, _⟩ => show win0_1.index t (0 : Fin 2) * 11 + 1 * k.val = k.val; omega
    | ⟨1, _⟩ => show win0_1.index t (1 : Fin 2) * 128 + 1 * q.val = win0_3.index t (1 : Fin 2) * 128 + 1 * q.val; omega
  · show V c main_call0_v43 (((cfg0.win 2).blk t).view.emb (ix2 0 q))
      = V c main_call0_v43 (ix2 0 ((((cfg0.win 3).blk t).view.emb (ix2 p q)) 1))
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the output is in point `t`'s block iff each coordinate is in the block's range on its axis. -/
theorem mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_call0_v44).slice (win0_3.rect t)).set ↔ _
  rw [View.set_slice_whole, Rect.mem_set_unit]
  exact Iff.rfl

/-- The ten row blocks cover the output. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- THE OUTPUT ARRAY after the launch: the dense layer of the three arrays as the launch finds them. -/
theorem final (c : Dev nD) :
    (dat0 V c).arrAt 3 cfg0.N
      = Cert.MatProd.denseRelu (M := 100000) (K := 11) (N := 128) (V c main_call0_v42) (V c main_arg1) (V c main_call0_v43) :=
  (dat0 V c).arrAt_eq_of_cover 3 _ (fun t _ => flushed_eq V c t) covered

end Cert.KernelIdeal.Layer1Dense

end
-- ==== Proof.Region1.lean ====
/-
  The second launch (the plain matrix product of layer 2), as one whole-array function.

  Its grid has ten points; point `t` reads rows `10000 t … 10000 t + 9999` of the left operand `[100000, 128]` and
  the whole right operand `[128, 128]`, and writes the same rows of the output: block `t` of the output is the
  product of block `t` of the left operand with the right operand. A row of a matrix product depends on the same row
  of the left operand only, so the ten blocks together are the product of the whole arrays, and they cover the output.
-/
import proofs.«161302_j23708219474023_2_alg».proof.Proof.Gen.KernelIdeal.Frame
import proofs.«161302_j23708219474023_2_alg».proof.Proof.LibMatProd
import Idealize.ShloMosaic.Lib.Pipeline.Value
import Idealize.ShloMosaic.Lib.ValueIdx

set_option maxRecDepth 16384

noncomputable section

open scoped BigOperators

namespace Cert.KernelIdeal.Layer2Product

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value is the product of its two loaded blocks (a change of float format is the identity). -/
theorem payload_eq (x0 : Vec Ideal S10000x128 .f32) (x1 : Vec Ideal S128x128 .f32) :
    k1_pay1 (F := Ideal) x0 x1 = Cert.MatProd.prod x0 x1 := by
  unfold k1_pay1
  rw [shapeCast_self]
  exact Cert.MatProd.matmul_plain_zero_eq none x0 x1

/-- The index maps over the grid: the left operand's block moves with the output's along the rows, the right
    operand stays, and the output's row-block index is the point's number. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- WHAT POINT `t` WRITES BACK is block `t` of the product of the two arrays as the launch finds them. -/
theorem flushed_eq (c : Dev nD) (t : Fin cfg1.N) :
    (dat1 V c).flushed 2 t = ((cfg1.win 2).blk t).view.read (Elt Ideal)
      (Cert.MatProd.prod (M := 100000) (K := 128) (N := 128) (V c main_call0_v44) (V c main_arg3)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x128) zero_offsets]
  rw [payload_eq]
  obtain ⟨e0, e1, e2, e3, e4, e5⟩ := index_facts t
  funext j
  obtain ⟨p, q, rfl⟩ : ∃ (p : Fin 10000) (q : Fin 128), j = ix2 p q := ⟨j 0, j 1, eq_ix2 j⟩
  show Cert.MatProd.prod (M := 10000) (K := 128) (N := 128) (iblk1 V c 0 t) (iblk1 V c 1 t) (ix2 p q)
    = Cert.MatProd.prod (M := 100000) (K := 128) (N := 128) (V c main_call0_v44) (V c main_arg3) (((cfg1.win 2).blk t).view.emb (ix2 p q))
  refine Cert.MatProd.prod_block_eq _ _ _ _ p q _ (fun k => ?_) (fun k => ?_)
  · show V c main_call0_v44 (((cfg1.win 0).blk t).view.emb (ix2 p k))
      = V c main_call0_v44 (ix2 ((((cfg1.win 2).blk t).view.emb (ix2 p q)) 0) k)
    refine congrArg _ (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * k.val = k.val; omega
  · show V c main_arg3 (((cfg1.win 1).blk t).view.emb (ix2 k q))
      = V c main_arg3 (ix2 k ((((cfg1.win 2).blk t).view.emb (ix2 p q)) 1))
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega

/-- An index of the output is in point `t`'s block iff each coordinate is in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_call0_v45).slice (win1_2.rect t)).set ↔ _
  rw [View.set_slice_whole, Rect.mem_set_unit]
  exact Iff.rfl

/-- The ten row blocks cover the output. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE OUTPUT ARRAY after the launch: the product of the two arrays as the launch finds them. -/
theorem final (c : Dev nD) :
    (dat1 V c).arrAt 2 cfg1.N = Cert.MatProd.prod (M := 100000) (K := 128) (N := 128) (V c main_call0_v44) (V c main_arg3) :=
  (dat1 V c).arrAt_eq_of_cover 2 _ (fun t _ => flushed_eq V c t) covered

end Cert.KernelIdeal.Layer2Product

end
-- ==== Proof.Region2.lean ====
/-
  The third launch (the two-layer head), as one whole-array function.

  Its grid is a single point, and every window's block is its whole array: the pooled features `[4096, 128]`, the
  first weight matrix `[128, 128]` and bias row `[1, 128]`, the second weight column `[128, 1]` and bias `[1, 1]`,
  and the output `[4096, 1]`. The body computes `max (p · W₁ + b₁, 0) · W₂ + b₂`; the one block is the whole output.
-/
import proofs.«161302_j23708219474023_2_alg».proof.Proof.Gen.KernelIdeal.Frame
import proofs.«161302_j23708219474023_2_alg».proof.Proof.LibMatProd
import Idealize.ShloMosaic.Lib.Pipeline.Value
import Idealize.ShloMosaic.Lib.ValueIdx

set_option maxRecDepth 16384

noncomputable section

open scoped BigOperators

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The first bias row broadcast down the rows, read at `(p, k)`, is the bias at column `k`. -/
theorem bias1_apply (x2 : Vec Ideal S1x128 .f32) (p : Fin 4096) (k : Fin 128) :
    broadcastTo S4096x128 x2 broadcasts_S1x128_S4096x128 (ix2 p k) = x2 (ix2 0 k) :=
  broadcastTo_apply x2 broadcasts_S1x128_S4096x128 (ix2 p k) (ix2 0 k) (fun a => by
    match a with
    | ⟨0, _⟩ => show (0 : ℕ) = if (1 : ℕ) = 1 then 0 else _; rw [if_pos rfl]
    | ⟨1, _⟩ => show k.val = if (128 : ℕ) = 1 then 0 else k.val; rw [if_neg (by decide)])

/-- The second bias broadcast down the rows, read anywhere, is the one bias. -/
theorem bias2_apply (x4 : Vec Ideal S1x1 .f32) (p : Fin 4096) (q : Fin 1) :
    broadcastTo S4096x1 x4 broadcasts_S1x1_S4096x1 (ix2 p q) = x4 (ix2 0 0) :=
  broadcastTo_apply x4 broadcasts_S1x1_S4096x1 (ix2 p q) (ix2 0 0) (fun a => by
    match a with
    | ⟨0, _⟩ => show (0 : ℕ) = if (1 : ℕ) = 1 then 0 else _; rw [if_pos rfl]
    | ⟨1, _⟩ => show (0 : ℕ) = if (1 : ℕ) = 1 then 0 else _; rw [if_pos rfl])

/-- The hidden layer of the body at `(p, k)` (a change of float format is the identity). -/
theorem hidden_apply (x0 : Vec Ideal S4096x128 .f32) (x1 : Vec Ideal S128x128 .f32) (x2 : Vec Ideal S1x128 .f32)
    (p : Fin 4096) (k : Fin 128) :
    (maximumf (addf (matmul dot_S4096x128_S128x128_S4096x128_1_0_0_1_n_n none (truncf .bf16 x0 bitsLt_bf16_f32)
        (truncf .bf16 x1 bitsLt_bf16_f32) (constant S4096x128 .f32 0x00000000#32))
        (broadcastTo S4096x128 x2 broadcasts_S1x128_S4096x128))
      (broadcast S4096x128 (Scalar.ofBits .f32 0x00000000#32)) : FVec Ideal S4096x128 .f32) (ix2 p k)
      = Cert.MatProd.denseRelu x0 x1 x2 (ix2 p k) :=
  congrArg₂ max (congrArg₂ (· + ·) (Cert.MatProd.matmul_plain_zero_apply none x0 x1 p k) (bias1_apply x2 p k)) rfl

/-- The body's stored value is the two-layer head of its five loaded blocks. -/
theorem payload_eq (x0 : Vec Ideal S4096x128 .f32) (x1 : Vec Ideal S128x128 .f32) (x2 : Vec Ideal S1x128 .f32)
    (x3 : Vec Ideal S128x1 .f32) (x4 : Vec Ideal S1x1 .f32) :
    k2_pay1 (F := Ideal) x0 x1 x2 x3 x4 = Cert.MatProd.mlpHead x0 x1 x2 x3 x4 := by
  unfold k2_pay1
  rw [shapeCast_self, shapeCast_self, shapeCast_self]
  funext j
  obtain ⟨p, q, rfl⟩ : ∃ (p : Fin 4096) (q : Fin 1), j = ix2 p q := ⟨j 0, j 1, eq_ix2 j⟩
  refine congrArg₂ (· + ·) ?_ (bias2_apply x4 p q)
  refine (Cert.MatProd.matmul_plain_zero_apply (M := 4096) (K := 128) (N := 1) (φ₁ := .bf16) (φ₂ := .bf16) none _
    (truncf .bf16 x3 bitsLt_bf16_f32) p q).trans ?_
  exact Finset.sum_congr rfl fun k _ => congrArg (· * x3 (ix2 k q)) (hidden_apply x0 x1 x2 p k)

/-- Every window's block index is zero at the one grid point. -/
theorem index_facts : ∀ t : Fin cfg2.N, (win2_0.index t (0 : Fin 2) = 0 ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

/-- Each input window's block at the one point is its whole array. -/
theorem block0 (c : Dev nD) (t : Fin cfg2.N) : iblk2 V c 0 t = V c main_call0_v74 := by
  obtain ⟨⟨e0, e1⟩, -⟩ := index_facts t
  funext y
  show V c main_call0_v74 (((cfg2.win 0).blk t).view.emb y) = V c main_call0_v74 y
  refine congrArg _ (funext fun a => Fin.ext ?_)
  match a with
  | ⟨0, _⟩ => show win2_0.index t (0 : Fin 2) * 4096 + 1 * (y 0).val = (y 0).val; omega
  | ⟨1, _⟩ => show win2_0.index t (1 : Fin 2) * 128 + 1 * (y 1).val = (y 1).val; omega
theorem block1 (c : Dev nD) (t : Fin cfg2.N) : iblk2 V c 1 t = V c main_arg5 := by
  obtain ⟨-, ⟨e0, e1⟩, -⟩ := index_facts t
  funext y
  show V c main_arg5 (((cfg2.win 1).blk t).view.emb y) = V c main_arg5 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega
theorem block2 (c : Dev nD) (t : Fin cfg2.N) : iblk2 V c 2 t = V c main_call0_v75 := by
  obtain ⟨-, -, ⟨e0, e1⟩, -⟩ := index_facts t
  funext y
  show V c main_call0_v75 (((cfg2.win 2).blk t).view.emb y) = V c main_call0_v75 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega
theorem block3 (c : Dev nD) (t : Fin cfg2.N) : iblk2 V c 3 t = V c main_arg7 := by
  obtain ⟨-, -, -, ⟨e0, e1⟩, -⟩ := index_facts t
  funext y
  show V c main_arg7 (((cfg2.win 3).blk t).view.emb y) = V c main_arg7 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 1 + 1 * (y 1).val = (y 1).val; omega
theorem block4 (c : Dev nD) (t : Fin cfg2.N) : iblk2 V c 4 t = V c main_call0_v76 := by
  obtain ⟨-, -, -, -, ⟨e0, e1⟩, -⟩ := index_facts t
  funext y
  show V c main_call0_v76 (((cfg2.win 4).blk t).view.emb y) = V c main_call0_v76 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 1 + 1 * (y 1).val = (y 1).val; omega

/-- The output window's block at the one point is the whole output: reading through it changes nothing. -/
theorem out_block_id (t : Fin cfg2.N) (y : S4096x1.Idx) : ((cfg2.win 5).blk t).view.emb y = y := by
  obtain ⟨-, -, -, -, -, ⟨e0, e1⟩⟩ := index_facts t
  funext a; apply Fin.ext
  match a with
  | ⟨0, _⟩ => show win2_5.index t (0 : Fin 2) * 4096 + 1 * (y 0).val = (y 0).val; omega
  | ⟨1, _⟩ => show win2_5.index t (1 : Fin 2) * 1 + 1 * (y 1).val = (y 1).val; omega

/-- WHAT THE ONE POINT WRITES BACK is the head of the five arrays as the launch finds them. -/
theorem flushed_eq (c : Dev nD) (t : Fin cfg2.N) :
    (dat2 V c).flushed 5 t = ((cfg2.win 5).blk t).view.read (Elt Ideal)
      (Cert.MatProd.mlpHead (G := 4096) (H := 128) (V c main_call0_v74) (V c main_arg5) (V c main_call0_v75) (V c main_arg7) (V c main_call0_v76)) := by
  show (cfg2.win 5).cut (grid2.coords t) ((dat2 V c).after 5 t) = _
  rw [after2_5]
  unfold out2_5
  rw [View.canon_unit_zero zero_offsets]
  simp only [View.ld_unit_zero (S := S4096x128) zero_offsets, View.ld_unit_zero (S := S128x128) zero_offsets,
    View.ld_unit_zero (S := S1x128) zero_offsets, View.ld_unit_zero (S := S128x1) zero_offsets,
    View.ld_unit_zero (S := S1x1) zero_offsets]
  rw [payload_eq, block0, block1, block2, block3, block4]
  funext y
  show _ = Cert.MatProd.mlpHead (G := 4096) (H := 128) (V c main_call0_v74) (V c main_arg5) (V c main_call0_v75) (V c main_arg7) (V c main_call0_v76) (((cfg2.win 5).blk t).view.emb y)
  rw [out_block_id]

/-- The one block covers the output. -/
theorem covered (i : S4096x1.Idx) :
    ∃ t : Fin cfg2.N, (cfg2.win 5).flush t = true ∧ i ∈ ((cfg2.win 5).blk t).view.set := by
  have hi0 : (i 0).val < 4096 := (i 0).isLt
  have hi1 : (i 1).val < 1 := (i 1).isLt
  obtain ⟨-, -, -, -, -, ⟨e0, e1⟩⟩ := index_facts t2_0
  refine ⟨t2_0, flush2_5 t2_0, ?_⟩
  show i ∈ ((View.whole main_v0).slice (win2_5.rect t2_0)).set
  rw [View.set_slice_whole, Rect.mem_set_unit]
  intro a
  match a with
  | ⟨0, _⟩ => show win2_5.index t2_0 (0 : Fin 2) * 4096 ≤ (i 0).val ∧ (i 0).val < win2_5.index t2_0 (0 : Fin 2) * 4096 + 4096; omega
  | ⟨1, _⟩ => show win2_5.index t2_0 (1 : Fin 2) * 1 ≤ (i 1).val ∧ (i 1).val < win2_5.index t2_0 (1 : Fin 2) * 1 + 1; omega

/-- THE OUTPUT ARRAY after the launch: the head of the five arrays as the launch finds them. -/
theorem final (c : Dev nD) :
    (dat2 V c).arrAt 5 cfg2.N
      = Cert.MatProd.mlpHead (G := 4096) (H := 128) (V c main_call0_v74) (V c main_arg5) (V c main_call0_v75) (V c main_arg7) (V c main_call0_v76) :=
  (dat2 V c).arrAt_eq_of_cover 5 _ (fun t _ => flushed_eq V c t) covered

end Cert.KernelIdeal.Head

end
-- ==== Proof.KernelValue.lean ====
/-
  The idealized kernel's result, as a function of the argument arrays.

  The run's last boundary holds the result buffer at what the third launch wrote; that launch read what the host
  operations after the second launch left, which read the second launch's output, and so on back to the launch
  memory. Folding the three launches' whole-array forms and the host stretches together:
    result = head (pooled (dense₁(aggregated x) · W2) …) …
  where `dense₁ a = max (a · W1 + b1, 0)` is the first launch, `· W2` the second and `head` the third.
-/
import proofs.«161302_j23708219474023_2_alg».proof.Proof.KernelRun
import proofs.«161302_j23708219474023_2_alg».proof.Proof.HostK
import proofs.«161302_j23708219474023_2_alg».proof.Proof.Region0
import proofs.«161302_j23708219474023_2_alg».proof.Proof.Region1
import proofs.«161302_j23708219474023_2_alg».proof.Proof.Region2

set_option maxRecDepth 16384

noncomputable section

namespace Cert.KernelIdeal.Whole

open Cert.KernelIdeal Cert.KernelIdeal.Gen Cert.KernelIdeal.HostSide
open Idealize.ShloMosaic Idealize.ShloMosaic.TcCoe Idealize.SL.Sem Idealize.ShloMosaic.StableHlo

/-- THE KERNEL'S RESULT as a function of its eleven arguments. -/
def result (x : FVec Ideal S100000x11 .f32) (W1 : FVec Ideal S11x128 .f32) (b1 : FVec Ideal S128 .f32)
    (W2 : FVec Ideal S128x128 .f32) (b2 : FVec Ideal S128 .f32) (Wl1 : FVec Ideal S128x128 .f32) (bl1 : FVec Ideal S128 .f32)
    (Wl2 : FVec Ideal S128x1 .f32) (bl2 : FVec Ideal S1 .f32) (ei : IVec S2x1600000 32) (batch : IVec S100000 32) :
    S4096x1.Idx → EReal :=
  Cert.MatProd.mlpHead (G := 4096) (H := 128)
    (pooled
      (Cert.MatProd.prod (M := 100000) (K := 128) (N := 128)
        (Cert.MatProd.denseRelu (M := 100000) (K := 11) (N := 128) (aggregated x (rowW ei) (colW ei)) W1
          (shapeCast S1x128 b1 shapeCasts_S128_S1x128))
        W2)
      (rowW ei) (colW ei) (edgeNorm (rowW ei) (colW ei)) b2 batch)
    Wl1 (shapeCast S1x128 bl1 shapeCasts_S128_S1x128) Wl2 (shapeCast S1x1 bl2 shapeCasts_S1_S1x1)

variable (m : (ℓ : Loc nD τ sig) → Buf (Elt Ideal) ℓ) (ρ : Dev nD → PrngReg) (c : Dev nD)

/-- A buffer neither of the first two launches writes holds, at the second launch's exit, what it held at the first
    launch's entry. -/
theorem kept01 (b : Ref sig .tc) (h1 : ∀ w, Pipeline.arrRef spec1 w ≠ b) (h0 : ∀ w, Pipeline.arrRef spec0 w ≠ b) :
    W3 m ρ c (Proc.devRef .tc b) = W1 m ρ c (Proc.devRef .tc b) :=
  (W3_of_ne m ρ c b h1).trans (W2_of_ne m ρ c b h0)

/-- The first launch's output at its exit. -/
theorem exit0 : (V2 m ρ c main_call0_v44 : S100000x128.Idx → EReal)
    = Cert.MatProd.denseRelu (M := 100000) (K := 11) (N := 128)
        (aggregated (m ((c : Thread nD τ).loc main_arg0)) (rowW (m ((c : Thread nD τ).loc main_arg9))) (colW (m ((c : Thread nD τ).loc main_arg9)))) (m ((c : Thread nD τ).loc main_arg1)) (shapeCast S1x128 (m ((c : Thread nD τ).loc main_arg2)) shapeCasts_S128_S1x128) := by
  have h : V2 m ρ c main_call0_v44 = (dat0 (V1 m ρ) c).arrAt 3 cfg0.N := W2_arr m ρ c 3
  rw [h, Layer1Dense.final (V1 m ρ) c, entry0_aggregated m ρ c, entry0_bias m ρ c, entry0_arg m ρ c main_arg1 (.inl rfl)]

/-- The second launch's output at its exit. -/
theorem exit1 : (V3 m ρ c main_call0_v45 : S100000x128.Idx → EReal)
    = Cert.MatProd.prod (M := 100000) (K := 128) (N := 128)
        (Cert.MatProd.denseRelu (M := 100000) (K := 11) (N := 128)
          (aggregated (m ((c : Thread nD τ).loc main_arg0)) (rowW (m ((c : Thread nD τ).loc main_arg9))) (colW (m ((c : Thread nD τ).loc main_arg9)))) (m ((c : Thread nD τ).loc main_arg1)) (shapeCast S1x128 (m ((c : Thread nD τ).loc main_arg2)) shapeCasts_S128_S1x128))
        (m ((c : Thread nD τ).loc main_arg3)) := by
  have h : V3 m ρ c main_call0_v45 = (dat1 (V2 m ρ) c).arrAt 2 cfg1.N := W3_arr m ρ c 2
  have h3 : V2 m ρ c main_arg3 = (m ((c : Thread nD τ).loc main_arg3)) :=
    (W2_of_ne m ρ c main_arg3 (by decide)).trans (entry0_arg m ρ c main_arg3 (.inr (.inl rfl)))
  rw [h, Layer2Product.final (V2 m ρ) c, exit0 m ρ c, h3]

/-- The pooled features at the third launch's entry. -/
theorem entry2_pooled : (V4 m ρ c main_call0_v74 : S4096x128.Idx → EReal)
    = pooled
        (Cert.MatProd.prod (M := 100000) (K := 128) (N := 128)
          (Cert.MatProd.denseRelu (M := 100000) (K := 11) (N := 128)
            (aggregated (m ((c : Thread nD τ).loc main_arg0)) (rowW (m ((c : Thread nD τ).loc main_arg9))) (colW (m ((c : Thread nD τ).loc main_arg9)))) (m ((c : Thread nD τ).loc main_arg1)) (shapeCast S1x128 (m ((c : Thread nD τ).loc main_arg2)) shapeCasts_S128_S1x128))
          (m ((c : Thread nD τ).loc main_arg3)))
        (rowW (m ((c : Thread nD τ).loc main_arg9))) (colW (m ((c : Thread nD τ).loc main_arg9))) (edgeNorm (rowW (m ((c : Thread nD τ).loc main_arg9))) (colW (m ((c : Thread nD τ).loc main_arg9)))) (m ((c : Thread nD τ).loc main_arg4)) (m ((c : Thread nD τ).loc main_arg10)) := by
  have e : V4 m ρ c main_call0_v74 = _ := stretchC_pooled (W3 m ρ c)
  have k3 : W3 m ρ c (Proc.devRef .tc main_call0_v3) = rowW (m ((c : Thread nD τ).loc main_arg9)) :=
    (kept01 m ρ c main_call0_v3 (by decide) (by decide)).trans (entry0_rowW m ρ c)
  have k6 : W3 m ρ c (Proc.devRef .tc main_call0_v6) = colW (m ((c : Thread nD τ).loc main_arg9)) :=
    (kept01 m ρ c main_call0_v6 (by decide) (by decide)).trans (entry0_colW m ρ c)
  have k29 : W3 m ρ c (Proc.devRef .tc main_call0_v29) = edgeNorm (rowW (m ((c : Thread nD τ).loc main_arg9))) (colW (m ((c : Thread nD τ).loc main_arg9))) :=
    (kept01 m ρ c main_call0_v29 (by decide) (by decide)).trans (entry0_edgeNorm m ρ c)
  have k4 : W3 m ρ c (Proc.devRef .tc main_arg4) = (m ((c : Thread nD τ).loc main_arg4)) :=
    (kept01 m ρ c main_arg4 (by decide) (by decide)).trans (entry0_arg m ρ c main_arg4 (.inr (.inr (.inl rfl))))
  have k10 : W3 m ρ c (Proc.devRef .tc main_arg10) = (m ((c : Thread nD τ).loc main_arg10)) :=
    (kept01 m ρ c main_arg10 (by decide) (by decide)).trans
      (entry0_arg m ρ c main_arg10 (.inr (.inr (.inr (.inr (.inr (.inr (.inr rfl))))))))
  have k45 : W3 m ρ c (Proc.devRef .tc main_call0_v45) = _ := exit1 m ρ c
  rw [e, k3, k6, k29, k4, k10, k45]

/-- THE RESULT BUFFER at the last boundary is that function of the argument arrays. -/
theorem result_eq : (W5 m ρ c (Proc.devRef .tc main_v0) : S4096x1.Idx → EReal)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h : W5 m ρ c (Proc.devRef .tc main_v0) = (dat2 (V4 m ρ) c).arrAt 5 cfg2.N := W5_arr m ρ c 5
  have a5 : V4 m ρ c main_arg5 = (m ((c : Thread nD τ).loc main_arg5)) :=
    (stretchC_kept (W3 m ρ c) main_arg5 (.inl rfl)).trans
      ((kept01 m ρ c main_arg5 (by decide) (by decide)).trans (entry0_arg m ρ c main_arg5 (.inr (.inr (.inr (.inl rfl))))))
  have a7 : V4 m ρ c main_arg7 = (m ((c : Thread nD τ).loc main_arg7)) :=
    (stretchC_kept (W3 m ρ c) main_arg7 (.inr rfl)).trans
      ((kept01 m ρ c main_arg7 (by decide) (by decide)).trans
        (entry0_arg m ρ c main_arg7 (.inr (.inr (.inr (.inr (.inr (.inl rfl))))))))
  have a6 : W3 m ρ c (Proc.devRef .tc main_arg6) = (m ((c : Thread nD τ).loc main_arg6)) :=
    (kept01 m ρ c main_arg6 (by decide) (by decide)).trans (entry0_arg m ρ c main_arg6 (.inr (.inr (.inr (.inr (.inl rfl))))))
  have a8 : W3 m ρ c (Proc.devRef .tc main_arg8) = (m ((c : Thread nD τ).loc main_arg8)) :=
    (kept01 m ρ c main_arg8 (by decide) (by decide)).trans
      (entry0_arg m ρ c main_arg8 (.inr (.inr (.inr (.inr (.inr (.inr (.inl rfl))))))))
  have b1 : V4 m ρ c main_call0_v75 = shapeCast S1x128 (m ((c : Thread nD τ).loc main_arg6)) shapeCasts_S128_S1x128 := by
    have e : V4 m ρ c main_call0_v75 = _ := stretchC_bias1 (W3 m ρ c)
    rw [e, a6]
  have b2 : V4 m ρ c main_call0_v76 = shapeCast S1x1 (m ((c : Thread nD τ).loc main_arg8)) shapeCasts_S1_S1x1 := by
    have e : V4 m ρ c main_call0_v76 = _ := stretchC_bias2 (W3 m ρ c)
    rw [e, a8]
  rw [h, Head.final (V4 m ρ) c, entry2_pooled m ρ c, a5, a7, b1, b2]
  rfl

/-- THE KERNEL'S RUN, its result a function of the arguments: every weakly fair execution terminates, nothing
    faulting, with the result buffer at `result` of the launch contents and every argument array as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (Cert.KernelIdeal.Named.run_named m ρ)

end Cert.KernelIdeal.Whole

end
-- ==== Proof.HostR.lean ====
/-
  The idealized reference's result, as a function of the argument arrays.

  The reference is a straight line of host operations: the edge lists with self loops, the symmetric normalisation,
  two graph-convolution layers — dense product, gather along the edges, scale, scatter-add, bias, clamp at zero —,
  a mean pool per graph, and a two-layer head. Its generated run states the result as one composed term; here that
  term is folded back into those named stages.
-/
import proofs.«161302_j23708219474023_2_alg».proof.Proof.RefRunPatched
import Idealize.ShloMosaic.PureOps.Ideal
import Idealize.ShloMosaic.Lib.ValueIdx

set_option maxRecDepth 16384

noncomputable section

namespace Cert.ReferenceIdeal.RefSide

open Cert.ReferenceIdeal Cert.ReferenceIdeal.Gen
open Idealize.ShloMosaic Idealize.ShloMosaic.TcCoe Idealize.SL.Sem Idealize.ShloMosaic.StableHlo

/-- Edge sources: the first row of the edge list, then one self loop per node. -/
def rowW (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- Edge targets: the second row of the edge list, then one self loop per node. -/
def colW (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A negative index counts from the end: `v < 0 ? v + 100000 : v`. -/
def wrapIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A per-edge vector as a one-column array. -/
def asColumn {α : Type} (v : S1700000.Idx → α) : S1700000x1.Idx → α :=
  broadcastInDim S1700000x1 ![0] bcast_S1700000_S1700000x1_0 v

/-- In-degrees with self loops: one per edge, added at the edge's target. -/
def degree (colv : IVec S1700000 32) : FVec Ideal S100000 .f32 :=
  Host.scatterAdd scatter_S100000_S1700000x1_S1700000_n_0_0_1
    (broadcastInDim S100000 ![] bcast_S_S100000 (constant S_ .f32 0x00000000#32)) (asColumn colv)
    (broadcastInDim S1700000 ![] bcast_S_S1700000 (constant S_ .f32 0x3F800000#32))

/-- `d^(-1/2)` where the degree is positive, else `0`. -/
def invSqrtDeg (colv : IVec S1700000 32) : FVec Ideal S100000 .f32 :=
  select (cmpf .ogt (degree colv) (broadcastInDim S100000 ![] bcast_S_S100000 (constant S_ .f32 0x00000000#32)))
    (Host.rsqrt (degree colv)) (broadcastInDim S100000 ![] bcast_S_S100000 (id (constant S_ .f32 0x00000000#32)))

/-- The symmetric normalisation of an edge. -/
def edgeNorm (rowv colv : IVec S1700000 32) : FVec Ideal S1700000 .f32 :=
  mulf (Host.gather gather_S100000_S1700000x1_S1700000_n_0_n_n_0_1_1 (invSqrtDeg colv) (asColumn (wrapIdx rowv)))
    (Host.gather gather_S100000_S1700000x1_S1700000_n_0_n_n_0_1_1 (invSqrtDeg colv) (asColumn (wrapIdx colv)))

/-- A graph-convolution layer after its dense product `X`: gather along the edges, scale by the edge normalisation,
    scatter-add at the targets, add the bias, clamp at zero. -/
def conv (X : FVec Ideal S100000x128 .f32) (rowv colv : IVec S1700000 32) (nrm : FVec Ideal S1700000 .f32)
    (b : FVec Ideal S128 .f32) : FVec Ideal S100000x128 .f32 :=
  maximumf
    (addf
      (Host.scatterAdd scatter_S100000x128_S1700000x1_S1700000x128_1_0_0_1
        (broadcastInDim S100000x128 ![] bcast_S_S100000x128 (constant S_ .f32 0x00000000#32)) (asColumn colv)
        (mulf (Host.gather gather_S100000x128_S1700000x1_S1700000x128_1_0_n_n_0_1_1128 X (asColumn (wrapIdx rowv)))
          (broadcastInDim S1700000x128 ![0, 1] bcast_S1700000x1_S1700000x128_0_1 (asColumn nrm))))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- Layer 2 after its dense product `X`: aggregate along the edges, add the bias, clamp at zero, mean-pool per graph. -/
def pooled (X : FVec Ideal S100000x128 .f32) (rowv colv : IVec S1700000 32) (nrm : FVec Ideal S1700000 .f32)
    (b2 : FVec Ideal S128 .f32) (batch : IVec S100000 32) : FVec Ideal S4096x128 .f32 :=
  Host.divf
    (Host.scatterAdd scatter_S4096x128_S100000x1_S100000x128_1_0_0_1
      (broadcastInDim S4096x128 ![] bcast_S_S4096x128 (constant S_ .f32 0x00000000#32))
      (broadcastInDim S100000x1 ![0] bcast_S100000_S100000x1_0 batch)
      (maximumf
        (addf
          (Host.scatterAdd scatter_S100000x128_S1700000x1_S1700000x128_1_0_0_1
            (broadcastInDim S100000x128 ![] bcast_S_S100000x128 (constant S_ .f32 0x00000000#32)) (asColumn colv)
            (mulf (Host.gather gather_S100000x128_S1700000x1_S1700000x128_1_0_n_n_0_1_1128 X (asColumn (wrapIdx rowv)))
              (broadcastInDim S1700000x128 ![0, 1] bcast_S1700000x1_S1700000x128_0_1 (asColumn nrm))))
          (broadcastInDim S100000x128 ![0, 1] bcast_S1x128_S100000x128_0_1 (broadcastInDim S1x128 ![1] bcast_S128_S1x128_1 b2)))
        (broadcastInDim S100000x128 ![] bcast_S_S100000x128 (constant S_ .f32 0x00000000#32))))
    (broadcastInDim S4096x128 ![0, 1] bcast_S4096x1_S4096x128_0_1
      (broadcastInDim S4096x1 ![0] bcast_S4096_S4096x1_0
        (maximumf
          (Host.scatterAdd scatter_S4096_S100000x1_S100000_n_0_0_1
            (broadcastInDim S4096 ![] bcast_S_S4096 (constant S_ .f32 0x00000000#32))
            (broadcastInDim S100000x1 ![0] bcast_S100000_S100000x1_0 batch)
            (broadcastInDim S100000 ![] bcast_S_S100000 (constant S_ .f32 0x3F800000#32)))
          (broadcastInDim S4096 ![] bcast_S_S4096 (constant S_ .f32 0x3F800000#32)))))

/-- The two-layer head on the pooled features. -/
def head (P : FVec Ideal S4096x128 .f32) (Wl1 : FVec Ideal S128x128 .f32) (bl1 : FVec Ideal S128 .f32)
    (Wl2 : FVec Ideal S128x1 .f32) (bl2 : FVec Ideal S1 .f32) : FVec Ideal S4096x1 .f32 :=
  addf
    (Host.dotGeneral dot_S4096x128_S128x1_S4096x1_1_0_0_1_n_n none
      (maximumf
        (addf (Host.dotGeneral dot_S4096x128_S128x128_S4096x128_1_0_0_1_n_n none P Wl1)
          (broadcastInDim S4096x128 ![0, 1] bcast_S1x128_S4096x128_0_1 (broadcastInDim S1x128 ![1] bcast_S128_S1x128_1 bl1)))
        (broadcastInDim S4096x128 ![] bcast_S_S4096x128 (constant S_ .f32 0x00000000#32)))
      Wl2)
    (broadcastInDim S4096x1 ![0, 1] bcast_S1x1_S4096x1_0_1 (broadcastInDim S1x1 ![1] bcast_S1_S1x1_1 bl2))

/-- The first layer's output. -/
def layer1 (x : FVec Ideal S100000x11 .f32) (W1 : FVec Ideal S11x128 .f32) (b1 : FVec Ideal S128 .f32)
    (ei : IVec S2x1600000 32) : FVec Ideal S100000x128 .f32 :=
  conv (Host.dotGeneral dot_S100000x11_S11x128_S100000x128_1_0_0_1_n_n none x W1) (rowW ei) (colW ei)
    (edgeNorm (rowW ei) (colW ei)) b1

/-- THE REFERENCE'S RESULT as a function of its eleven arguments. -/
def result (x : FVec Ideal S100000x11 .f32) (W1 : FVec Ideal S11x128 .f32) (b1 : FVec Ideal S128 .f32)
    (W2 : FVec Ideal S128x128 .f32) (b2 : FVec Ideal S128 .f32) (Wl1 : FVec Ideal S128x128 .f32) (bl1 : FVec Ideal S128 .f32)
    (Wl2 : FVec Ideal S128x1 .f32) (bl2 : FVec Ideal S1 .f32) (ei : IVec S2x1600000 32) (batch : IVec S100000 32) :
    FVec Ideal S4096x1 .f32 :=
  head
    (pooled (Host.dotGeneral dot_S100000x128_S128x128_S100000x128_1_0_0_1_n_n none (layer1 x W1 b1 ei) W2) (rowW ei) (colW ei)
      (edgeNorm (rowW ei) (colW ei)) b2 batch)
    Wl1 bl1 Wl2 bl2

/-- The run's composed term IS that function of the argument arrays. -/
theorem res_eq (m : (ℓ : Loc nD τ sig) → Buf (Elt Ideal) ℓ) (c : Dev nD) :
    Cert.ReferenceIdeal.ValueP.res_main_v109 (F := Ideal) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.ValueP.res_main_v109 result head pooled layer1 conv edgeNorm invSqrtDeg degree asColumn wrapIdx rowW colW
  rfl

end Cert.ReferenceIdeal.RefSide

end
-- ==== Proof.FiniteInputs.lean ====
/-
  What the precondition gives: the input features and the first weight matrix hold real numbers.

  The precondition is a conjunction, one conjunct per float argument, each `all (|a| < +∞)` over the argument's
  entries. An extended real whose absolute value `max a (-a)` is strictly below `+∞` is a real: `+∞` and `-∞` both
  have absolute value `+∞`. Only the first two conjuncts (the features `x` and the weights `W1`) are used.
-/
import proofs.«161302_j23708219474023_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

instance : Subsingleton S_.Idx := ⟨fun a b => funext fun d => d.elim0⟩

/-- The word `0x7F800000` reads as `+∞`. -/
theorem inf_word : Ideal.ofBits .f32 0x7F800000#32 = (⊤ : EReal) := by simp [Ideal.ofBits, Ideal.ieee]

/-- An extended real whose absolute value is strictly below `+∞` is a real. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

variable [Facts]

/-- One entry of `|a| < +∞`, read back. -/
theorem real_of_entry {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    ∃ r : ℝ, a i = (r : EReal) :=
  real_of_abs_lt (a i) h

/-- THE PRECONDITION, READ BACK for the first two arguments. -/
theorem reals_of_pre (a0 : FVec Ideal S100000x11 .f32) (a1 : FVec Ideal S11x128 .f32) (a2 : FVec Ideal S128 .f32)
    (a3 : FVec Ideal S128x128 .f32) (a4 : FVec Ideal S128 .f32) (a5 : FVec Ideal S128x128 .f32) (a6 : FVec Ideal S128 .f32)
    (a7 : FVec Ideal S128x1 .f32) (a8 : FVec Ideal S1 .f32) (a9 : IVec S2x1600000 32) (a10 : IVec S100000 32)
    (h : fn (F := Ideal) a0 a1 a2 a3 a4 a5 a6 a7 a8 a9 a10 = fun _ => 1#1) :
    (∀ i, ∃ r : ℝ, a0 i = (r : EReal)) ∧ (∀ i, ∃ r : ℝ, a1 i = (r : EReal)) := by
  have h0 := congrFun h ix0
  dsimp only [fn, fn_part1, fn_part2] at h0
  have p43 : IntOp.andi _ _ = 1#1 := h0
  have p38 : IntOp.andi _ _ = 1#1 := (IntOp.andi_eq_one.1 p43).1
  have p33 : IntOp.andi _ _ = 1#1 := (IntOp.andi_eq_one.1 p38).1
  have p28 : IntOp.andi _ _ = 1#1 := (IntOp.andi_eq_one.1 p33).1
  have p23 : IntOp.andi _ _ = 1#1 := (IntOp.andi_eq_one.1 p28).1
  have p18 : IntOp.andi _ _ = 1#1 := (IntOp.andi_eq_one.1 p23).1
  have p13 : IntOp.andi _ _ = 1#1 := (IntOp.andi_eq_one.1 p18).1
  have p8 : IntOp.andi _ _ = 1#1 := (IntOp.andi_eq_one.1 p13).1
  have e3 : Host.reduce IntOp.andi _ _ _ _ ix0 = 1#1 := (IntOp.andi_eq_one.1 p8).1
  have e7 : Host.reduce IntOp.andi _ _ _ _ ix0 = 1#1 := (IntOp.andi_eq_one.1 p8).2
  exact ⟨fun i => real_of_entry a0 _ i (Host.reduce_andi_all _ _ _ _ ix0 e3 i),
    fun i => real_of_entry a1 _ i (Host.reduce_andi_all _ _ _ _ ix0 e7 i)⟩

end Cert.Pre_finite_inputs.Decode

end
-- ==== Proof.CrossNames.lean ====
/-
  The two programs' host stages are the same functions.

  The kernel's host operations and the reference's are printed over two copies of the same shapes and dimension
  records; the stages defined over them — edge lists, index wrap, degrees, edge normalisation, the second layer's
  aggregation with the mean pool — are therefore equal as functions, argument for argument. Also here: the second
  launch's whole-array product is the reference's `dot_general`.
-/
import proofs.«161302_j23708219474023_2_alg».proof.Proof.HostK
import proofs.«161302_j23708219474023_2_alg».proof.Proof.HostR
import proofs.«161302_j23708219474023_2_alg».proof.Proof.LibMatProd

set_option maxRecDepth 16384

noncomputable section

namespace Cert.Bridge

open Idealize.ShloMosaic
open Cert.KernelIdeal (S2x1600000 S1700000 S1700000x1 S100000 S100000x128 S128x128 S128 S4096x128)

theorem rowW_eq (ei : IVec S2x1600000 32) : Cert.ReferenceIdeal.RefSide.rowW ei = Cert.KernelIdeal.HostSide.rowW ei := rfl
theorem colW_eq (ei : IVec S2x1600000 32) : Cert.ReferenceIdeal.RefSide.colW ei = Cert.KernelIdeal.HostSide.colW ei := rfl
theorem wrapIdx_eq (v : IVec S1700000 32) : Cert.ReferenceIdeal.RefSide.wrapIdx v = Cert.KernelIdeal.HostSide.wrapIdx v := rfl
theorem asColumn_eq {α : Type} (v : S1700000.Idx → α) :
    Cert.ReferenceIdeal.RefSide.asColumn v = Cert.KernelIdeal.HostSide.asColumn v := rfl

theorem degree_eq (colv : IVec S1700000 32) :
    Cert.ReferenceIdeal.RefSide.degree colv = Cert.KernelIdeal.HostSide.degree colv := rfl

theorem invSqrtDeg_eq (colv : IVec S1700000 32) :
    Cert.ReferenceIdeal.RefSide.invSqrtDeg colv = Cert.KernelIdeal.HostSide.invSqrtDeg colv := by
  unfold Cert.ReferenceIdeal.RefSide.invSqrtDeg Cert.KernelIdeal.HostSide.invSqrtDeg
  rw [degree_eq]

theorem edgeNorm_eq (rowv colv : IVec S1700000 32) :
    Cert.ReferenceIdeal.RefSide.edgeNorm rowv colv = Cert.KernelIdeal.HostSide.edgeNorm rowv colv := by
  unfold Cert.ReferenceIdeal.RefSide.edgeNorm Cert.KernelIdeal.HostSide.edgeNorm
  rw [invSqrtDeg_eq, wrapIdx_eq, wrapIdx_eq, asColumn_eq, asColumn_eq]
  rfl

theorem pooled_eq (X : FVec Ideal S100000x128 .f32) (rowv colv : IVec S1700000 32) (nrm : FVec Ideal S1700000 .f32)
    (b2 : FVec Ideal S128 .f32) (batch : IVec S100000 32) :
    Cert.ReferenceIdeal.RefSide.pooled X rowv colv nrm b2 batch = Cert.KernelIdeal.HostSide.pooled X rowv colv nrm b2 batch := by
  unfold Cert.ReferenceIdeal.RefSide.pooled Cert.KernelIdeal.HostSide.pooled
  rw [wrapIdx_eq, asColumn_eq, asColumn_eq, asColumn_eq]
  rfl

/-- The second launch's whole-array product is the reference's second dense product. -/
theorem layer2_product_eq (H : FVec Ideal S100000x128 .f32) (W : FVec Ideal S128x128 .f32) :
    Cert.MatProd.prod (M := 100000) (K := 128) (N := 128) H W
      = Host.dotGeneral Cert.ReferenceIdeal.dot_S100000x128_S128x128_S100000x128_1_0_0_1_n_n none H W :=
  (Cert.MatProd.dotGeneral_plain_eq (M := 100000) (K := 128) (N := 128) none .single H W).symm

end Cert.Bridge

end
-- ==== Proof.NormReal.lean ====
/-
  The edge normalisation holds real numbers.

  `edgeNorm e` is a product of two entries of `invSqrtDeg`, and an entry of `invSqrtDeg` is `d^(-1/2)` where the degree
  `d` is strictly positive and `0` otherwise. Over the extended reals `d^(-1/2)` is `0` at `+∞` and a real at a positive
  real, and the guard excludes `d ≤ 0`: every entry is a real, whatever the edge list holds.
-/
import proofs.«161302_j23708219474023_2_alg».proof.Proof.HostK
import Idealize.ShloMosaic.PureOps.Ideal.Laws

noncomputable section

namespace Cert.KernelIdeal.HostSide

open Cert.KernelIdeal Cert.KernelIdeal.Gen
open Idealize.ShloMosaic Idealize.ShloMosaic.ValueIdx

/-- `d^(-1/2)` guarded by `d > 0`, else `0`, is a real for every extended real `d`. -/
theorem guarded_rsqrt_real (d : EReal) :
    ∃ r : ℝ, Scalar.select (Ideal.cmp .ogt d (Ideal.ofBits .f32 0x00000000#32)) (Ideal.rsqrt d)
      (Ideal.ofBits .f32 0x00000000#32) = (r : EReal) := by
  rw [Ideal.ofBits_zero_f32]
  have top_eq : Ideal.rsqrt ⊤ = 0 := rfl
  have coe_eq : ∀ r : ℝ, Ideal.rsqrt (r : EReal)
      = if r < 0 then ⊥ else if r = 0 then ⊤ else (((Real.sqrt r)⁻¹ : ℝ) : EReal) := fun _ => rfl
  induction d using EReal.rec with
  | bot => exact ⟨0, by simp [Ideal.cmp, Scalar.select]⟩
  | top => exact ⟨0, by simp [Ideal.cmp, Scalar.select, top_eq]⟩
  | coe r =>
    by_cases hr : 0 < r
    · refine ⟨(Real.sqrt r)⁻¹, ?_⟩
      have h1 : ¬ r < 0 := not_lt.mpr hr.le
      have h2 : r ≠ 0 := hr.ne'
      simp [Ideal.cmp, Scalar.select, coe_eq, hr, h1, h2]
    · exact ⟨0, by simp [Ideal.cmp, Scalar.select, hr]⟩

/-- The guarded reciprocal square root of a vector of degrees, read at an index. -/
theorem guarded_apply (D : FVec Ideal S100000 .f32) (i : S100000.Idx) :
    select (cmpf .ogt D (broadcastInDim S100000 ![] bcast_S_S100000 (constant S_ .f32 0x00000000#32)))
        (Host.rsqrt D) (broadcastInDim S100000 ![] bcast_S_S100000 (id (constant S_ .f32 0x00000000#32))) i
      = Scalar.select (Ideal.cmp .ogt (D i) (Ideal.ofBits .f32 0x00000000#32)) (Ideal.rsqrt (D i))
          (Ideal.ofBits .f32 0x00000000#32) := rfl

/-- Every entry of `invSqrtDeg` is a real. -/
theorem invSqrtDeg_real (colv : IVec S1700000 32) (i : S100000.Idx) : ∃ r : ℝ, invSqrtDeg colv i = (r : EReal) := by
  unfold invSqrtDeg
  rw [guarded_apply]
  exact guarded_rsqrt_real _

/-- A gathered entry is an entry of the table. -/
theorem gather_entry {s si so : Shape} (d : GatherDims s si so) {α : Type} (x : s.Idx → α) {w : Nat} (idx : IVec si w) (j : so.Idx) :
    ∃ i, Host.gather d x idx j = x i := ⟨_, rfl⟩

/-- Every entry of the edge normalisation is a real. -/
theorem edgeNorm_real (rowv colv : IVec S1700000 32) (e : S1700000.Idx) : ∃ r : ℝ, edgeNorm rowv colv e = (r : EReal) := by
  obtain ⟨i1, h1⟩ := gather_entry gather_S100000_S1700000x1_S1700000_n_0_n_n_0_1_1 (invSqrtDeg colv) (asColumn (wrapIdx rowv)) e
  obtain ⟨i2, h2⟩ := gather_entry gather_S100000_S1700000x1_S1700000_n_0_n_n_0_1_1 (invSqrtDeg colv) (asColumn (wrapIdx colv)) e
  obtain ⟨r1, hr1⟩ := invSqrtDeg_real colv i1
  obtain ⟨r2, hr2⟩ := invSqrtDeg_real colv i2
  refine ⟨r1 * r2, ?_⟩
  unfold edgeNorm
  rw [mulf_apply, h1, h2, hr1, hr2, EReal.coe_mul]

end Cert.KernelIdeal.HostSide

end
-- ==== Proof.LibRowOps.lean ====
/-
  Row gather and row scatter-add, read at an index.

  A table `x : [N, C]` indexed by a column of `E` start words `idx : [E, 1]`:
  * the row gather `x[idx]` has entry `(e, c)` equal to `x (r e, c)`, where `r e` is word `e` read as a signed
    integer and clamped into `[0, N - 1]`;
  * the accumulating row scatter (`out[idx[e]] += upd[e]`) over the extended reals has entry `(r, c)` equal to the
    operand's entry plus the sum of `upd (e, c)` over the edges `e` whose word, read signed and NOT clamped, is `r`;
    a word outside `[0, N)` contributes to no row.
  Both statements are column by column: column `c` of the result depends on column `c` of the table only.
-/
import Idealize.ShloMosaic.PureOps.Ideal
import Idealize.ShloMosaic.Lib.ValueIdx

noncomputable section

open scoped BigOperators

namespace Cert.RowOps

open Idealize.ShloMosaic Idealize.ShloMosaic.ValueIdx

/-- The dimension numbers of a row gather: operand `[N, C]`, start words `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a row scatter: operand `[N, C]`, scatter words `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row a gather reads for edge `e`: its start word read signed, clamped into `[0, N - 1]`. -/
def gatherRow (N : Nat) (hN : 0 < N) {E w : Nat} (idx : IVec ⟨2, ![E, 1]⟩ w) (e : Fin E) : Fin N :=
  ⟨min (idx (ix2 e 0)).toInt.toNat (N - 1), by omega⟩

/-- The row a scatter adds edge `e` into: its word read signed, not clamped (outside `[0, N)`: no row). -/
def scatterRow {E w : Nat} (idx : IVec ⟨2, ![E, 1]⟩ w) (e : Fin E) : Int := (idx (ix2 e 0)).toInt

/-- THE ROW GATHER AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (gatherRow N hN idx e) c) := by
  unfold Host.gather
  congr 1
  funext a
  refine Fin.ext ?_
  match a with
  | ⟨0, _⟩ =>
    -- the row axis: the start word clamped, no batching coordinate, no offset coordinate (the axis is collapsed)
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: no start word, no batching coordinate, the offset coordinate is the column
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept (rowGatherDims N E C wf) 1).mpr
      ⟨(show (1 : Fin 2) ∉ ([0] : List (Fin 2)) by decide), List.not_mem_nil⟩)]
    rfl

/-- For any scatter: an update lands at `i` exactly when, on every operand axis, its start plus its window coordinate
    is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hr
      have hi := Option.some.inj h
      intro a
      have ha := congrFun hi a
      have hra := hr a
      rw [← ha]
      show _ = (((d.start j idx a + (d.window j a : Int)).toNat : Nat) : Int)
      omega
    · cases h
  · intro h
    have hr : ∀ a, 0 ≤ d.start j idx a + (d.window j a : Int) ∧ d.start j idx a + (d.window j a : Int) < (s.size a : Int) := by
      intro a
      have := h a
      have := (i a).isLt
      omega
    rw [dif_pos hr]
    congr 1
    funext a
    refine Fin.ext ?_
    show (d.start j idx a + (d.window j a : Int)).toNat = (i a).val
    have := h a
    omega

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- The row scatter's start on the row axis, for update `(e, c')`: word `e` read signed. -/
theorem rowScatter_start_row : (rowScatterDims N E C wf).start (ix2 e c') idx 0 = scatterRow idx e := by
  unfold ScatterDims.start
  rw [dif_pos (show (0 : Fin 2) ∈ (rowScatterDims N E C wf).scatterDimsToOperandDims from List.mem_singleton.mpr rfl)]
  have hsi : (rowScatterDims N E C wf).siIdx (ix2 e c') ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Its start on the column axis is `0` (the map does not name that axis). -/
theorem rowScatter_start_col : (rowScatterDims N E C wf).start (ix2 e c') idx 1 = 0 := by
  unfold ScatterDims.start
  rw [dif_neg (show (1 : Fin 2) ∉ ([0] : List (Fin 2)) by decide)]

/-- Its window coordinate on the row axis is `0` (an inserted axis). -/
theorem rowScatter_window_row : (rowScatterDims N E C wf).window (ix2 e c') 0 = 0 := by
  unfold ScatterDims.window
  have hk : (0 : Fin 2) ∉ (rowScatterDims N E C wf).sKept := by
    show (0 : Fin 2) ∉ (List.finRange 2).filter (fun a => a ∉ ([0] : List (Fin 2)))
    decide
  rw [dif_neg hk]

/-- Its window coordinate on the column axis is the update's column. -/
theorem rowScatter_window_col : (rowScatterDims N E C wf).window (ix2 e c') 1 = c'.val := by
  unfold ScatterDims.window
  have hk : (1 : Fin 2) ∈ (rowScatterDims N E C wf).sKept := by
    show (1 : Fin 2) ∈ (List.finRange 2).filter (fun a => a ∉ ([0] : List (Fin 2)))
    decide
  rw [dif_pos hk]
  rfl

/-- Update `(e, c')` of a row scatter lands at `(r, c)` exactly when word `e`, read signed, is `r` and `c' = c`. -/
theorem rowScatter_resultIdx?_iff (r : Fin N) (c : Fin C) :
    (rowScatterDims N E C wf).resultIdx? (ix2 e c') idx = some (ix2 r c) ↔ scatterRow idx e = (r.val : Int) ∧ c' = c := by
  rw [resultIdx?_eq_some_iff]
  constructor
  · intro h
    have h0 : (rowScatterDims N E C wf).start (ix2 e c') idx 0 + (((rowScatterDims N E C wf).window (ix2 e c') 0 : Nat) : Int)
        = (r.val : Int) := h 0
    have h1 : (rowScatterDims N E C wf).start (ix2 e c') idx 1 + (((rowScatterDims N E C wf).window (ix2 e c') 1 : Nat) : Int)
        = (c.val : Int) := h 1
    rw [rowScatter_start_row, rowScatter_window_row] at h0
    rw [rowScatter_start_col, rowScatter_window_col] at h1
    exact ⟨by omega, Fin.ext (by omega)⟩
  · rintro ⟨h0, rfl⟩ a
    match a with
    | ⟨0, _⟩ =>
      show (rowScatterDims N E C wf).start (ix2 e c') idx 0 + (((rowScatterDims N E C wf).window (ix2 e c') 0 : Nat) : Int)
        = (r.val : Int)
      rw [rowScatter_start_row, rowScatter_window_row]; omega
    | ⟨1, _⟩ =>
      show (rowScatterDims N E C wf).start (ix2 e c') idx 1 + (((rowScatterDims N E C wf).window (ix2 e c') 1 : Nat) : Int)
        = (c'.val : Int)
      rw [rowScatter_start_col, rowScatter_window_col]; omega

end Rows

/-- THE ACCUMULATING ROW SCATTER AT `(r, c)`, over the extended reals. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Host.scatterAdd (F := Ideal) (φ := .f32) (rowScatterDims N E C wf) x idx upd (ix2 r c)
      = x (ix2 r c) + ∑ e ∈ Finset.univ.filter (fun e : Fin E => scatterRow idx e = (r.val : Int)), upd (ix2 e c) := by
  show Ideal.hostScatterAdd (rowScatterDims N E C wf) x idx upd (ix2 r c) = _
  unfold Ideal.hostScatterAdd
  congr 1
  -- the sum over the updates landing at (r, c), as a double sum over edges and columns; only column c survives
  rw [Finset.sum_filter, sum_idx2, Finset.sum_filter]
  refine Finset.sum_congr rfl fun e _ => ?_
  simp only [rowScatter_resultIdx?_iff]
  by_cases h : scatterRow idx e = (r.val : Int)
  · simp [h]
  · simp [h]

end Cert.RowOps

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.LibRowAgg.lean ====
/-
  Aggregation along edges, read at an index: gather rows of a table `T` at the edges' sources, scale row `e` by a
  per-edge weight `nrm e`, scatter-add at the edges' targets into a zero array. Entry `(i, k)` of the result is
    `0 + ∑ over the edges e with target i of T (source e, k) * nrm e`.
  Generic in the node count `N`, the edge count `E` and the feature width `C`.
-/
import proofs.«161302_j23708219474023_2_alg».proof.Proof.LibRowOps
import proofs.«161302_j23708219474023_2_alg».proof.Proof.LibBroadcast

noncomputable section

open scoped BigOperators

namespace Cert.RowOps

open Idealize.ShloMosaic Idealize.ShloMosaic.ValueIdx

/-- THE AGGREGATION AT `(i, k)`. -/
theorem scatter_scaled_gather_apply {N E C : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ (![] : Fin 0 → Fin 2))
    (hb : (⟨2, ![E, 1]⟩ : Shape).BroadcastsInDim ⟨2, ![E, C]⟩ ![0, 1])
    (hc : (⟨1, ![E]⟩ : Shape).BroadcastsInDim ⟨2, ![E, 1]⟩ ![0])
    (T : (⟨2, ![N, C]⟩ : Shape).Idx → EReal) (idxG idxS : IVec ⟨2, ![E, 1]⟩ 32) (nrm : (⟨1, ![E]⟩ : Shape).Idx → EReal)
    (i : Fin N) (k : Fin C) :
    Host.scatterAdd (F := Ideal) (φ := .f32) (rowScatterDims N E C wfS)
        (broadcastInDim ⟨2, ![N, C]⟩ ![] hz (constant (F := Ideal) ⟨0, ![]⟩ .f32 0x00000000#32)) idxS
        (mulf (F := Ideal) (φ := .f32) (Host.gather (rowGatherDims N E C wfG) T idxG)
          (broadcastInDim ⟨2, ![E, C]⟩ ![0, 1] hb (broadcastInDim ⟨2, ![E, 1]⟩ ![0] hc nrm)))
        (ix2 i k)
      = Ideal.ofBits .f32 0x00000000#32
        + ∑ e ∈ Finset.univ.filter (fun e : Fin E => scatterRow idxS e = (i.val : Int)),
            T (ix2 (gatherRow N hN idxG e) k) * nrm (ix1 e) := by
  rw [scatterAdd_rows_apply]
  refine congrArg₂ (· + ·) rfl (Finset.sum_congr rfl fun e _ => ?_)
  rw [mulf_apply, gather_rows_apply hN, Cert.Layout.cols_of_col_apply, Cert.Layout.col_of_vec_apply]

end Cert.RowOps

end
-- ==== Proof.LibSumLaw.lean ====
/-
  Moving a weighted sum across a matrix product, over the extended reals.

  For real-valued `X`, `w`, `n` (each given as an extended real that is a real):
    `∑ e ∈ S, (∑ k, X e k * w k) * n e = ∑ k, (∑ e ∈ S, X e k * n e) * w k`.
  Over the reals this is distributivity and an exchange of the two sums; over the extended reals distributivity fails
  at the infinities, which is why every factor is required to be a real.
-/
import Idealize.ShloMosaic.PureOps.Ideal

noncomputable section

open scoped BigOperators

namespace Cert.SumLaw

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- A finite sum of reals is a real. -/
theorem sum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by simp only [hg, coe_sum]⟩

/-- THE LAW. -/
theorem sum_mul_swap {ι κ : Type} [Fintype κ] (S : Finset ι) (X : ι → κ → EReal) (w : κ → EReal) (n : ι → EReal)
    (hX : ∀ e k, ∃ r : ℝ, X e k = (r : EReal)) (hw : ∀ k, ∃ r : ℝ, w k = (r : EReal))
    (hn : ∀ e, ∃ r : ℝ, n e = (r : EReal)) :
    ∑ e ∈ S, (∑ k, X e k * w k) * n e = ∑ k, (∑ e ∈ S, X e k * n e) * w k := by
  choose Xr hXr using hX
  choose wr hwr using hw
  choose nr hnr using hn
  have hL : ∑ e ∈ S, (∑ k, X e k * w k) * n e = ((∑ e ∈ S, (∑ k, Xr e k * wr k) * nr e : ℝ) : EReal) := by
    rw [coe_sum]
    refine Finset.sum_congr rfl fun e _ => ?_
    rw [EReal.coe_mul, coe_sum, hnr]
    congr 1
    refine Finset.sum_congr rfl fun k _ => ?_
    rw [EReal.coe_mul, hXr, hwr]
  have hR : ∑ k, (∑ e ∈ S, X e k * n e) * w k = ((∑ k, (∑ e ∈ S, Xr e k * nr e) * wr k : ℝ) : EReal) := by
    rw [coe_sum]
    refine Finset.sum_congr rfl fun k _ => ?_
    rw [EReal.coe_mul, coe_sum, hwr]
    congr 1
    refine Finset.sum_congr rfl fun e _ => ?_
    rw [EReal.coe_mul, hXr, hnr]
  rw [hL, hR]
  congr 1
  simp only [Finset.sum_mul]
  rw [Finset.sum_comm]
  refine Finset.sum_congr rfl fun k _ => Finset.sum_congr rfl fun e _ => ?_
  ring

end Cert.SumLaw

end
-- ==== Proof.Layer1.lean ====
/-
  Layer 1: aggregating the 11-wide input rows BEFORE the dense product (the kernel) gives the same array as
  aggregating the 128-wide products (the reference), when the features `x` and the weights `W1` hold real numbers.

  At node `i` and output feature `q`, with `S` the edges whose target is `i`, `s e` the source of edge `e` and `n e`
  its normalisation:
    kernel     `max (∑ k, (0 + ∑ e ∈ S, x (s e, k) * n e) * W1 (k, q) + b1 q, 0)`
    reference  `max ((0 + ∑ e ∈ S, (∑ k, x (s e, k) * W1 (k, q)) * n e) + b1 q, 0)`.
  The two inner expressions are one: distributivity and an exchange of the two finite sums, valid because every factor
  is a real (the normalisation always is; `x` and `W1` by the precondition).
-/
import proofs.«161302_j23708219474023_2_alg».proof.Proof.HostK
import proofs.«161302_j23708219474023_2_alg».proof.Proof.HostR
import proofs.«161302_j23708219474023_2_alg».proof.Proof.CrossNames
import proofs.«161302_j23708219474023_2_alg».proof.Proof.NormReal
import proofs.«161302_j23708219474023_2_alg».proof.Proof.LibRowAgg
import proofs.«161302_j23708219474023_2_alg».proof.Proof.LibSumLaw
import proofs.«161302_j23708219474023_2_alg».proof.Proof.LibMatProd

set_option maxRecDepth 16384

noncomputable section

open scoped BigOperators

namespace Cert.Bridge

open Idealize.ShloMosaic Idealize.ShloMosaic.ValueIdx
open Cert.KernelIdeal (S100000x11 S11x128 S128 S1x128 S100000x128 S1700000 S1700000x1 S100000)

/-- The edges whose target is node `i`. -/
def edgesInto (colv : IVec S1700000 32) (i : Fin 100000) : Finset (Fin 1700000) :=
  Finset.univ.filter (fun e : Fin 1700000 =>
    Cert.RowOps.scatterRow (Cert.KernelIdeal.HostSide.asColumn colv) e = (i.val : Int))

/-- The source node of edge `e` (a negative index counted from the end, then clamped into range). -/
def sourceOf (rowv : IVec S1700000 32) (e : Fin 1700000) : Fin 100000 :=
  Cert.RowOps.gatherRow 100000 (by decide) (Cert.KernelIdeal.HostSide.asColumn (Cert.KernelIdeal.HostSide.wrapIdx rowv)) e

/-- The kernel's and the reference's dimension records are the generic row gather / row scatter. -/
theorem kernel_scatter11 : Cert.KernelIdeal.scatter_S100000x11_S1700000x1_S1700000x11_1_0_0_1
    = Cert.RowOps.rowScatterDims 100000 1700000 11 Cert.KernelIdeal.scatter_S100000x11_S1700000x1_S1700000x11_1_0_0_1.wf := rfl
theorem kernel_gather11 : Cert.KernelIdeal.gather_S100000x11_S1700000x1_S1700000x11_1_0_n_n_0_1_111
    = Cert.RowOps.rowGatherDims 100000 1700000 11 Cert.KernelIdeal.gather_S100000x11_S1700000x1_S1700000x11_1_0_n_n_0_1_111.wf := rfl
theorem reference_scatter128 : Cert.ReferenceIdeal.scatter_S100000x128_S1700000x1_S1700000x128_1_0_0_1
    = Cert.RowOps.rowScatterDims 100000 1700000 128 Cert.ReferenceIdeal.scatter_S100000x128_S1700000x1_S1700000x128_1_0_0_1.wf := rfl
theorem reference_gather128 : Cert.ReferenceIdeal.gather_S100000x128_S1700000x1_S1700000x128_1_0_n_n_0_1_1128
    = Cert.RowOps.rowGatherDims 100000 1700000 128 Cert.ReferenceIdeal.gather_S100000x128_S1700000x1_S1700000x128_1_0_n_n_0_1_1128.wf := rfl

/-- The kernel's aggregated features at `(i, k)`. -/
theorem aggregated_apply (x : FVec Ideal S100000x11 .f32) (rowv colv : IVec S1700000 32) (i : Fin 100000) (k : Fin 11) :
    Cert.KernelIdeal.HostSide.aggregated x rowv colv (ix2 i k)
      = Ideal.ofBits .f32 0x00000000#32
        + ∑ e ∈ edgesInto colv i, x (ix2 (sourceOf rowv e) k) * Cert.KernelIdeal.HostSide.edgeNorm rowv colv (ix1 e) := by
  unfold Cert.KernelIdeal.HostSide.aggregated
  rw [kernel_scatter11, kernel_gather11]
  exact Cert.RowOps.scatter_scaled_gather_apply (N := 100000) (E := 1700000) (C := 11) (by decide) _ _ _ _ _ x _ _ _ i k

/-- The reference's layer after its dense product `X`, at `(i, q)`. -/
theorem conv_apply (X : FVec Ideal S100000x128 .f32) (rowv colv : IVec S1700000 32) (nrm : FVec Ideal S1700000 .f32)
    (b : FVec Ideal S128 .f32) (i : Fin 100000) (q : Fin 128) :
    Cert.ReferenceIdeal.RefSide.conv X rowv colv nrm b (ix2 i q)
      = max ((Ideal.ofBits .f32 0x00000000#32 + ∑ e ∈ edgesInto colv i, X (ix2 (sourceOf rowv e) q) * nrm (ix1 e)) + b (ix1 q))
          (Ideal.ofBits .f32 0x00000000#32) := by
  unfold Cert.ReferenceIdeal.RefSide.conv
  rw [maximumf_apply, addf_apply, Cert.Layout.splat_apply, Cert.Layout.rows_of_vec_apply, asColumn_eq, asColumn_eq, asColumn_eq,
    wrapIdx_eq, reference_scatter128, reference_gather128]
  refine congrArg₂ max (congrArg₂ (· + ·) ?_ rfl) rfl
  exact Cert.RowOps.scatter_scaled_gather_apply (N := 100000) (E := 1700000) (C := 128) (by decide) _ _ _ _ _ X _ _ _ i q

/-- LAYER 1, THE TWO ORDERS AGREE. -/
theorem layer1_eq (x : FVec Ideal S100000x11 .f32) (W1 : FVec Ideal S11x128 .f32) (b1 : FVec Ideal S128 .f32)
    (rowv colv : IVec S1700000 32)
    (hx : ∀ i, ∃ r : ℝ, x i = (r : EReal)) (hW : ∀ i, ∃ r : ℝ, W1 i = (r : EReal)) :
    Cert.MatProd.denseRelu (M := 100000) (K := 11) (N := 128) (Cert.KernelIdeal.HostSide.aggregated x rowv colv) W1
        (shapeCast S1x128 b1 Cert.KernelIdeal.Gen.shapeCasts_S128_S1x128)
      = Cert.ReferenceIdeal.RefSide.conv
          (Host.dotGeneral Cert.ReferenceIdeal.dot_S100000x11_S11x128_S100000x128_1_0_0_1_n_n none x W1) rowv colv
          (Cert.KernelIdeal.HostSide.edgeNorm rowv colv) b1 := by
  funext j
  obtain ⟨i, q, rfl⟩ : ∃ (i : Fin 100000) (q : Fin 128), j = ix2 i q := ⟨j 0, j 1, eq_ix2 j⟩
  have hdot : Host.dotGeneral Cert.ReferenceIdeal.dot_S100000x11_S11x128_S100000x128_1_0_0_1_n_n none x W1
      = Cert.MatProd.prod (M := 100000) (K := 11) (N := 128) x W1 :=
    Cert.MatProd.dotGeneral_plain_eq (M := 100000) (K := 11) (N := 128) none .single x W1
  rw [conv_apply, hdot]
  show max (Cert.MatProd.prod (M := 100000) (K := 11) (N := 128) (Cert.KernelIdeal.HostSide.aggregated x rowv colv) W1 (ix2 i q)
      + shapeCast S1x128 b1 Cert.KernelIdeal.Gen.shapeCasts_S128_S1x128 (ix2 0 q)) (Ideal.ofBits .f32 0x00000000#32) = _
  rw [Cert.Layout.row_of_vec_apply]
  refine congrArg₂ max (congrArg₂ (· + ·) ?_ rfl) rfl
  show ∑ k : Fin 11, Cert.KernelIdeal.HostSide.aggregated x rowv colv (ix2 i k) * W1 (ix2 k q)
    = Ideal.ofBits .f32 0x00000000#32
      + ∑ e ∈ edgesInto colv i, (∑ k : Fin 11, x (ix2 (sourceOf rowv e) k) * W1 (ix2 k q))
          * Cert.KernelIdeal.HostSide.edgeNorm rowv colv (ix1 e)
  simp only [aggregated_apply, Ideal.ofBits_zero_f32, zero_add]
  exact (Cert.SumLaw.sum_mul_swap (edgesInto colv i) (fun e k => x (ix2 (sourceOf rowv e) k)) (fun k => W1 (ix2 k q))
    (fun e => Cert.KernelIdeal.HostSide.edgeNorm rowv colv (ix1 e)) (fun e k => hx _) (fun k => hW _)
    (fun e => Cert.KernelIdeal.HostSide.edgeNorm_real rowv colv (ix1 e))).symm

end Cert.Bridge

end
-- ==== Proof.HeadBridge.lean ====
/-
  The third launch's whole-array form is the reference's two-layer head.

  Both are `max (P · Wl1 + bl1, 0) · Wl2 + bl2`: the kernel reads the biases as a row `[1, 128]` and a `[1, 1]` array
  (reshapes of the vectors), the reference broadcasts the vectors down the rows; the host's `dot_general` is the plain
  matrix product.
-/
import proofs.«161302_j23708219474023_2_alg».proof.Proof.HostK
import proofs.«161302_j23708219474023_2_alg».proof.Proof.HostR
import proofs.«161302_j23708219474023_2_alg».proof.Proof.LibMatProd
import proofs.«161302_j23708219474023_2_alg».proof.Proof.LibBroadcast

set_option maxRecDepth 16384

noncomputable section

open scoped BigOperators

namespace Cert.Bridge

open Idealize.ShloMosaic Idealize.ShloMosaic.ValueIdx
open Cert.KernelIdeal (S4096x128 S128x128 S128 S1x128 S128x1 S1 S1x1 S4096x1)

/-- The hidden layer: the kernel's dense layer over the bias row is the reference's over the broadcast bias vector. -/
theorem hidden_eq (P : FVec Ideal S4096x128 .f32) (Wl1 : FVec Ideal S128x128 .f32) (bl1 : FVec Ideal S128 .f32) :
    Cert.MatProd.denseRelu (M := 4096) (K := 128) (N := 128) P Wl1 (shapeCast S1x128 bl1 Cert.KernelIdeal.Gen.shapeCasts_S128_S1x128)
      = maximumf
          (addf (Cert.MatProd.prod (M := 4096) (K := 128) (N := 128) P Wl1 : FVec Ideal S4096x128 .f32)
            (broadcastInDim S4096x128 ![0, 1] Cert.ReferenceIdeal.Gen.bcast_S1x128_S4096x128_0_1
              (broadcastInDim S1x128 ![1] Cert.ReferenceIdeal.Gen.bcast_S128_S1x128_1 bl1)))
          (broadcastInDim S4096x128 ![] Cert.ReferenceIdeal.Gen.bcast_S_S4096x128 (constant (F := Ideal) ⟨0, ![]⟩ .f32 0x00000000#32)) := by
  funext i
  obtain ⟨a, k, rfl⟩ : ∃ (a : Fin 4096) (k : Fin 128), i = ix2 a k := ⟨i 0, i 1, eq_ix2 i⟩
  rw [maximumf_apply, addf_apply, Cert.Layout.rows_of_vec_apply, Cert.Layout.splat_apply]
  show max (Cert.MatProd.prod (M := 4096) (K := 128) (N := 128) P Wl1 (ix2 a k)
      + shapeCast S1x128 bl1 Cert.KernelIdeal.Gen.shapeCasts_S128_S1x128 (ix2 0 k)) (Ideal.ofBits .f32 0x00000000#32) = _
  rw [Cert.Layout.row_of_vec_apply]

/-- THE HEAD. -/
theorem head_eq (P : FVec Ideal S4096x128 .f32) (Wl1 : FVec Ideal S128x128 .f32) (bl1 : FVec Ideal S128 .f32)
    (Wl2 : FVec Ideal S128x1 .f32) (bl2 : FVec Ideal S1 .f32) :
    Cert.MatProd.mlpHead (G := 4096) (H := 128) P Wl1 (shapeCast S1x128 bl1 Cert.KernelIdeal.Gen.shapeCasts_S128_S1x128) Wl2
        (shapeCast S1x1 bl2 Cert.KernelIdeal.Gen.shapeCasts_S1_S1x1)
      = Cert.ReferenceIdeal.RefSide.head P Wl1 bl1 Wl2 bl2 := by
  have hd1 : Host.dotGeneral Cert.ReferenceIdeal.dot_S4096x128_S128x128_S4096x128_1_0_0_1_n_n none P Wl1
      = Cert.MatProd.prod (M := 4096) (K := 128) (N := 128) P Wl1 :=
    Cert.MatProd.dotGeneral_plain_eq (M := 4096) (K := 128) (N := 128) none .single P Wl1
  have hd2 : ∀ A : FVec Ideal S4096x128 .f32,
      Host.dotGeneral Cert.ReferenceIdeal.dot_S4096x128_S128x1_S4096x1_1_0_0_1_n_n none A Wl2
        = Cert.MatProd.prod (M := 4096) (K := 128) (N := 1) A Wl2 :=
    fun A => Cert.MatProd.dotGeneral_plain_eq (M := 4096) (K := 128) (N := 1) none .single A Wl2
  funext j
  obtain ⟨p, q, rfl⟩ : ∃ (p : Fin 4096) (q : Fin 1), j = ix2 p q := ⟨j 0, j 1, eq_ix2 j⟩
  have hq : q = 0 := Subsingleton.elim _ _
  subst hq
  unfold Cert.ReferenceIdeal.RefSide.head
  rw [addf_apply, Cert.Layout.rows_of_vec_apply, hd2, hd1, ← hidden_eq]
  show Cert.MatProd.prod (M := 4096) (K := 128) (N := 1) _ Wl2 (ix2 p 0)
      + shapeCast S1x1 bl2 Cert.KernelIdeal.Gen.shapeCasts_S1_S1x1 (ix2 0 0) = _
  rw [Cert.Layout.row_of_vec_apply]

end Cert.Bridge

end
-- ==== Proof.Results.lean ====
/-
  The two results are one function of the arguments, where the features and the first weight matrix are real.

  Stage by stage: the head is the head; the mean pool and the second layer's aggregation are the same host stages;
  the second dense product is the reference's; and layer 1 agrees by linearity (the one place the precondition is used).
-/
import proofs.«161302_j23708219474023_2_alg».proof.Proof.KernelValue
import proofs.«161302_j23708219474023_2_alg».proof.Proof.HostR
import proofs.«161302_j23708219474023_2_alg».proof.Proof.CrossNames
import proofs.«161302_j23708219474023_2_alg».proof.Proof.Layer1
import proofs.«161302_j23708219474023_2_alg».proof.Proof.HeadBridge

set_option maxRecDepth 16384

noncomputable section

namespace Cert.Bridge

open Idealize.ShloMosaic
open Cert.KernelIdeal (S100000x11 S11x128 S128 S128x128 S128x1 S1 S2x1600000 S100000)

theorem results_eq (x : FVec Ideal S100000x11 .f32) (W1 : FVec Ideal S11x128 .f32) (b1 : FVec Ideal S128 .f32)
    (W2 : FVec Ideal S128x128 .f32) (b2 : FVec Ideal S128 .f32) (Wl1 : FVec Ideal S128x128 .f32) (bl1 : FVec Ideal S128 .f32)
    (Wl2 : FVec Ideal S128x1 .f32) (bl2 : FVec Ideal S1 .f32) (ei : IVec S2x1600000 32) (batch : IVec S100000 32)
    (hx : ∀ i, ∃ r : ℝ, x i = (r : EReal)) (hW : ∀ i, ∃ r : ℝ, W1 i = (r : EReal)) :
    Cert.KernelIdeal.Whole.result x W1 b1 W2 b2 Wl1 bl1 Wl2 bl2 ei batch
      = Cert.ReferenceIdeal.RefSide.result x W1 b1 W2 b2 Wl1 bl1 Wl2 bl2 ei batch := by
  unfold Cert.KernelIdeal.Whole.result Cert.ReferenceIdeal.RefSide.result Cert.ReferenceIdeal.RefSide.layer1
  rw [rowW_eq, colW_eq, edgeNorm_eq, pooled_eq, head_eq, layer2_product_eq, layer1_eq x W1 b1 _ _ hx hW]

end Cert.Bridge

end
-- ==== Proof.lean ====
/-
  The certificate of a two-layer graph convolution network with a mean pool and a two-layer head, on 100000 nodes,
  1600000 edges (plus one self loop per node) and 4096 graphs: the kernel program against its reference, over the
  extended reals.

  The kernel runs three launches — layer 1's dense product with bias and clamp, layer 2's dense product, the head —
  among host operations (edge lists, degrees, the symmetric normalisation `n e = d(row e)^(-1/2) · d(col e)^(-1/2)`,
  gathers and scatter-adds along the edges, the mean pool). The reference is host operations only.

  * The three frames: each program terminates, nothing faulting, its arguments unchanged (for the reference, its run
    with the result dropped).
  * `preserves`: the idealized kernel is the kernel's own text read over the extended reals; nothing was rewritten.
  * `algebraic`: both results are the same function of the arguments. Stage by stage the two programs compute the same
    thing — a change of float format is the identity, a kernel's matrix product into a zero accumulator is the host's
    `dot_general`, a tiling of the rows is the whole array — except in layer 1, where the kernel aggregates the 11-wide
    input rows along the edges BEFORE the dense product and the reference aggregates the 128-wide products:
      `∑ k, (∑ e, x (s e, k) * n e) * W (k, q) = ∑ e, (∑ k, x (s e, k) * W (k, q)) * n e`.
    That is distributivity and an exchange of finite sums, which hold over the extended reals when every factor is a
    real: the normalisation always is (a guarded reciprocal square root), and `x`, `W1` are by the precondition.
-/
import proofs.«161302_j23708219474023_2_alg».proof.Defs
import proofs.«161302_j23708219474023_2_alg».proof.Proof.Gen.Kernel
import proofs.«161302_j23708219474023_2_alg».proof.Proof.Gen.Kernel.Skeleton
import proofs.«161302_j23708219474023_2_alg».proof.Proof.Gen.Kernel.Launch
import proofs.«161302_j23708219474023_2_alg».proof.Proof.Gen.Kernel.Points
import proofs.«161302_j23708219474023_2_alg».proof.Proof.Gen.Kernel.Frame
import proofs.«161302_j23708219474023_2_alg».proof.Proof.Gen.KernelIdeal
import proofs.«161302_j23708219474023_2_alg».proof.Proof.Gen.KernelIdeal.Skeleton
import proofs.«161302_j23708219474023_2_alg».proof.Proof.Gen.KernelIdeal.Launch
import proofs.«161302_j23708219474023_2_alg».proof.Proof.Gen.KernelIdeal.Points
import proofs.«161302_j23708219474023_2_alg».proof.Proof.Gen.KernelIdeal.Frame
import proofs.«161302_j23708219474023_2_alg».proof.Proof.Gen.ReferenceIdeal
import proofs.«161302_j23708219474023_2_alg».proof.Proof.Gen.Pre_finite_inputs
import proofs.«161302_j23708219474023_2_alg».proof.Proof.RefRunPatched
import proofs.«161302_j23708219474023_2_alg».proof.Proof.KernelValue
import proofs.«161302_j23708219474023_2_alg».proof.Proof.HostR
import proofs.«161302_j23708219474023_2_alg».proof.Proof.FiniteInputs
import proofs.«161302_j23708219474023_2_alg».proof.Proof.Results
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the same result: the kernel's run and the reference's run each state the result as a
    function of the arguments, the arguments agree, and the two functions are one where `x` and `W1` are real. -/
theorem algebraic : Cert.algebraic_KernelIdeal_ReferenceIdeal := by
  intro m ρ m' ρ' hpre hagree
  refine ⟨fun c => Cert.KernelIdeal.Whole.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Whole.run m ρ, ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5, e6, e7, e8, e9, e10⟩ := hagree c
  obtain ⟨hx, hW⟩ := Cert.Pre_finite_inputs.Decode.reals_of_pre _ _ _ _ _ _ _ _ _ _ _ (hpre c)
  rw [Cert.ReferenceIdeal.RefSide.res_eq, e0, e1, e2, e3, e4, e5, e6, e7, e8, e9, e10]
  exact (Cert.Bridge.results_eq _ _ _ _ _ _ _ _ _ _ _ hx hW).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
